-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S1024x3072, .f32⟩
  | .hbm, ⟨11, _⟩ => ⟨S1024x3072, .bf16⟩
  | .hbm, ⟨12, _⟩ => ⟨S3072, .f32⟩
  | .hbm, ⟨13, _⟩ => ⟨S1x3072, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S8192x1024, .f32⟩
  | .hbm, ⟨18, _⟩ => ⟨S8192x3072, .bf16⟩
  | .hbm, ⟨19, _⟩ => ⟨S4x2048x3072, .bf16⟩
  | .hbm, ⟨20, _⟩ => ⟨S4x2048x1024, .bf16⟩
  | .hbm, ⟨21, _⟩ => ⟨S8192x1024, .bf16⟩
  | .hbm, ⟨22, _⟩ => ⟨S8192x1024, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .bf16⟩
  | .local _ .vmem, ⟨13, _⟩ => ⟨S1x512x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  transposes_S1024x1024_S1024x1024_1_0 : S1024x1024.Transposes [1, 0] S1024x1024
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.ProjIn.lean ====
/-
  The fused query / key / value projection as one pipelined region: 16 grid points, point t taking rows 512 t .. 512 t + 511
  of the [8192, 1024] input, the whole [1024, 3072] weight matrix and the [1, 3072] bias row, and writing the same rows
  of the [8192, 3072] result. This module holds the region's half of the run at any float instance: the blocks the
  windows stage, what the body leaves in the output tile, the body's triple and the pipeline's proof data.
-/
import proofs.«146471_j31877247271608_2_alg».proof.Proof.Gen.Kernel.Launch
import proofs.«146471_j31877247271608_2_alg».proof.Proof.Gen.Kernel.Skeleton
import proofs.«146471_j31877247271608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ProjIn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of window `w` at grid point `t`, read off the window's array as the region finds it. -/
def tileOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetches it or the block
    index has not moved since the fetch: the rows tile, -/
theorem held_rows {c : Dev nD} (dat : Dat τ (Elt F) Unit ℕ (UR sig nD τ) ℕ cfg0 c) (hA : dat.A 0 = V c (Pipeline.arrRef spec0 0))
    (hafter : ∀ t, dat.after 0 t = tileOf V c 0 t) (t : Fin cfg0.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the weight matrix, -/
theorem held_weight {c : Dev nD} (dat : Dat τ (Elt F) Unit ℕ (UR sig nD τ) ℕ cfg0 c) (hA : dat.A 1 = V c (Pipeline.arrRef spec0 1))
    (hafter : ∀ t, dat.after 1 t = tileOf V c 1 t) (t : Fin cfg0.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the bias row. -/
theorem held_bias {c : Dev nD} (dat : Dat τ (Elt F) Unit ℕ (UR sig nD τ) ℕ cfg0 c) (hA : dat.A 2 = V c (Pipeline.arrRef spec0 2))
    (hafter : ∀ t, dat.after 2 t = tileOf V c 2 t) (t : Fin cfg0.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectX : Rect S512x1024 := Rect.unit (s := S512x1024) ![0, 0] S512x1024.size inb_S512x1024_S512x1024_0_0
abbrev rectW : Rect S1024x3072 := Rect.unit (s := S1024x3072) ![0, 0] S1024x3072.size inb_S1024x3072_S1024x3072_0_0
abbrev rectB : Rect S1x3072 := Rect.unit (s := S1x3072) ![0, 0] S1x3072.size inb_S1x3072_S1x3072_0_0
abbrev rectO : Rect S512x3072 := Rect.unit (s := S512x3072) ![0, 0] S512x3072.size inb_S512x3072_S512x3072_0_0

/-- What the body leaves in the output tile: its one store, of the product of the rows tile with the weight matrix plus
    the bias row, over the whole tile. -/
def stored (x : Vec F S512x1024 .f32) (w : Vec F S1024x3072 .bf16) (bias : Vec F S1x3072 .f32) : Vec F S512x3072 .bf16 :=
  View.canon [⟨rectO, k0_pay1 (View.ld x rectX) (View.ld w rectW) (View.ld bias rectB)⟩]

/-- The one store covers the tile. -/
theorem stored_covers (p : Vec F S512x3072 .bf16) (y : S512x3072.Idx) :
    ∃ pc ∈ ([⟨rectO, p⟩] : List (View.Piece (Elt F) S512x3072 .bf16)), y ∈ pc.1.set :=
  View.cover_of_tiled [⟨rectO, p⟩] S512x3072.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid0.Coords) (a0 : Memref sig .tc .vmem S512x1024 .f32) (h0 : a0.IsWhole) (a1 : Memref sig .tc .vmem S1024x3072 .bf16) (h1 : a1.IsWhole)
    (a2 : Memref sig .tc .vmem S1x3072 .f32) (h2 : a2.IsWhole) (a3 : Memref sig .tc .vmem S512x3072 .bf16) (h3 : a3.IsWhole)
    (x : Vec F S512x1024 .f32) (w : Vec F S1024x3072 .bf16) (bias : Vec F S1x3072 .f32) (K : PUnit → sProp 𝕄) :
    iprop(owns (c : Thread nD τ) a0 fullShare x ∗ owns (c : Thread nD τ) a1 fullShare w ∗ owns (c : Thread nD τ) a2 fullShare bias ∗ (∃ d, owns (c : Thread nD τ) a3 fullShare d)
        ∗ (iprop(owns (c : Thread nD τ) a0 fullShare x ∗ owns (c : Thread nD τ) a1 fullShare w ∗ owns (c : Thread nD τ) a2 fullShare bias
            ∗ owns (c : Thread nD τ) a3 fullShare (stored x w bias)) -∗ K ⟨⟩))
      ⊢ wp frame (wpE (defs₀ (F := F)) Variants.none c none) E (cc0__qkv_kernel i a0 h0 a1 h1 a2 h2 a3 h3) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the body uses nothing besides. -/
def proofData (c : Dev nD) : Dat τ (Elt F) Unit ℕ (UR sig nD τ) ℕ cfg0 c where
  A w := V c (Pipeline.arrRef spec0 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec0 c
  q _ := fullShare
  owed _ := 0

theorem entry_eq (c : Dev nD) (w : Fin cfg0.W) : (proofData V c).A w = V c (Pipeline.arrRef spec0 w) := by
  dsimp only [proofData]
theorem after_rows (c : Dev nD) (t : Fin cfg0.N) : (proofData V c).after 0 t = tileOf V c 0 t := by dsimp only [proofData]
theorem after_weight (c : Dev nD) (t : Fin cfg0.N) : (proofData V c).after 1 t = tileOf V c 1 t := by dsimp only [proofData]
theorem after_bias (c : Dev nD) (t : Fin cfg0.N) : (proofData V c).after 2 t = tileOf V c 2 t := by dsimp only [proofData]
theorem after_out (c : Dev nD) (t : Fin cfg0.N) :
    (proofData V c).after 3 t = stored (tileOf V c 0 t) (tileOf V c 1 t) (tileOf V c 2 t) := by dsimp only [proofData]

theorem before_rows (c : Dev nD) (t : Fin cfg0.N) (d) : (proofData V c).before 0 t d = tileOf V c 0 t :=
  held_rows V (proofData V c) (entry_eq V c 0) (after_rows V c) t d
theorem before_weight (c : Dev nD) (t : Fin cfg0.N) (d) : (proofData V c).before 1 t d = tileOf V c 1 t :=
  held_weight V (proofData V c) (entry_eq V c 1) (after_weight V c) t d
theorem before_bias (c : Dev nD) (t : Fin cfg0.N) (d) : (proofData V c).before 2 t d = tileOf V c 2 t :=
  held_bias V (proofData V c) (entry_eq V c 2) (after_bias V c) t d

/-- What the pipeline hands the body at point `t`, the windows one by one, -/
def handed (c : Dev nD) (t : Fin cfg0.N) : sProp 𝕄 :=
  iprop((proofData V c).Φ t.castSucc ∗ (proofData V c).owesAt () t.castSucc
    ∗ (∃ d, owns (c : Thread nD τ) (st0_0 t) fullShare ((proofData V c).before 0 t d))
    ∗ (∃ d, owns (c : Thread nD τ) (st0_1 t) fullShare ((proofData V c).before 1 t d))
    ∗ (∃ d, owns (c : Thread nD τ) (st0_2 t) fullShare ((proofData V c).before 2 t d))
    ∗ (∃ d, owns (c : Thread nD τ) (st0_3 t) fullShare ((proofData V c).before 3 t d)))

/-- and what the body hands back. -/
def returned (c : Dev nD) (t : Fin cfg0.N) : sProp 𝕄 :=
  iprop((proofData V c).Φ t.succ ∗ (proofData V c).owesAt () t.succ
    ∗ owns (c : Thread nD τ) (st0_0 t) fullShare ((proofData V c).after 0 t)
    ∗ owns (c : Thread nD τ) (st0_1 t) fullShare ((proofData V c).after 1 t)
    ∗ owns (c : Thread nD τ) (st0_2 t) fullShare ((proofData V c).after 2 t)
    ∗ owns (c : Thread nD τ) (st0_3 t) fullShare ((proofData V c).after 3 t))

/-- The body at any point: its inputs' buffers hold their blocks, so the triple applies; the rest passes through. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_rows, before_weight, before_bias]
  rw [show (proofData V c).Φ t.succ = (proofData V c).Φ t.castSucc from rfl,
    show (proofData V c).owesAt () t.succ = (proofData V c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W0, bigSep_W0]
  exact body_at V c t

end Cert.Kernel.ProjIn

end
-- ==== Proof.K.Heads.lean ====
/-
  The attention proper as one pipelined region over the [4, 2048, 3072] array of queries, keys and values laid side by
  side along the last axis. The grid is batch entry x head pair x query tile (4 x 8 x 4 points); a point takes the
  [512, 128] tile of its pair's queries, and the pair's keys and values over all 2048 positions ([2048, 128] each, read
  from the second and third thousand-odd columns of the SAME array), and writes the [512, 128] tile of contexts. Three
  input windows thus read one array. This module holds the region's half of the run at any float instance: the blocks
  the windows stage, what the body leaves in the output tile, the body's triple and the pipeline's proof data, whose
  three readers hold the shared array at three shares that make up the whole.
-/
import proofs.«146471_j31877247271608_2_alg».proof.Proof.Gen.Kernel.Launch
import proofs.«146471_j31877247271608_2_alg».proof.Proof.Gen.Kernel.Skeleton
import proofs.«146471_j31877247271608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The three readers' shares of the one array: a half, and the two halves of the other half. -/
def shareQ : PosShare TreeShare := fullShare.left
def shareK : PosShare TreeShare := fullShare.right.left
def shareV : PosShare TreeShare := fullShare.right.right

/-- The block of window `w` at grid point `t`, read off the window's array as the region finds it. -/
def tileOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetches it or the block
    index has not moved since the fetch: the query tile, -/
theorem held_q {c : Dev nD} (dat : Dat τ (Elt F) Unit ℕ (UR sig nD τ) ℕ cfg1 c) (hA : dat.A 0 = V c (Pipeline.arrRef spec1 0))
    (hafter : ∀ t, dat.after 0 t = tileOf V c 0 t) (t : Fin cfg1.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the keys, -/
theorem held_k {c : Dev nD} (dat : Dat τ (Elt F) Unit ℕ (UR sig nD τ) ℕ cfg1 c) (hA : dat.A 1 = V c (Pipeline.arrRef spec1 1))
    (hafter : ∀ t, dat.after 1 t = tileOf V c 1 t) (t : Fin cfg1.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the values. -/
theorem held_v {c : Dev nD} (dat : Dat τ (Elt F) Unit ℕ (UR sig nD τ) ℕ cfg1 c) (hA : dat.A 2 = V c (Pipeline.arrRef spec1 2))
    (hafter : ∀ t, dat.after 2 t = tileOf V c 2 t) (t : Fin cfg1.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectQ : Rect S1x512x128 := Rect.unit (s := S1x512x128) ![0, 0, 0] S1x512x128.size inb_S1x512x128_S1x512x128_0_0_0
abbrev rectKV : Rect S1x2048x128 := Rect.unit (s := S1x2048x128) ![0, 0, 0] S1x2048x128.size inb_S1x2048x128_S1x2048x128_0_0_0

/-- The context tile of a head pair from its query tile and all its keys and values: the second head's value slice,
    shifted exponentials and their row sums go with the first head's finished context into the last payload. -/
def pairContext (q : Vec F S1x512x128 .bf16) (k v : Vec F S1x2048x128 .bf16) : FVec F S1x512x128 .bf16 :=
  k1_pay1 (k1_pay5 q k v) (k1_pay6 v) (k1_pay7 q k) (k1_pay8 q k)

/-- What the body leaves in the output tile: its one store, of the pair's contexts, over the whole tile. -/
def stored (q : Vec F S1x512x128 .bf16) (k v : Vec F S1x2048x128 .bf16) : Vec F S1x512x128 .bf16 :=
  View.canon [⟨rectQ, pairContext (View.ld q rectQ) (View.ld k rectKV) (View.ld v rectKV)⟩]

/-- The one store covers the tile. -/
theorem stored_covers (p : Vec F S1x512x128 .bf16) (y : S1x512x128.Idx) :
    ∃ pc ∈ ([⟨rectQ, p⟩] : List (View.Piece (Elt F) S1x512x128 .bf16)), y ∈ pc.1.set :=
  View.cover_of_tiled [⟨rectQ, p⟩] S1x512x128.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid1.Coords) (a0 : Memref sig .tc .vmem S1x512x128 .bf16) (h0 : a0.IsWhole) (a1 : Memref sig .tc .vmem S1x2048x128 .bf16) (h1 : a1.IsWhole)
    (a2 : Memref sig .tc .vmem S1x2048x128 .bf16) (h2 : a2.IsWhole) (a3 : Memref sig .tc .vmem S1x512x128 .bf16) (h3 : a3.IsWhole)
    (q : Vec F S1x512x128 .bf16) (k v : Vec F S1x2048x128 .bf16) (K : PUnit → sProp 𝕄) :
    iprop(owns (c : Thread nD τ) a0 fullShare q ∗ owns (c : Thread nD τ) a1 fullShare k ∗ owns (c : Thread nD τ) a2 fullShare v ∗ (∃ d, owns (c : Thread nD τ) a3 fullShare d)
        ∗ (iprop(owns (c : Thread nD τ) a0 fullShare q ∗ owns (c : Thread nD τ) a1 fullShare k ∗ owns (c : Thread nD τ) a2 fullShare v
            ∗ owns (c : Thread nD τ) a3 fullShare (stored q k v)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the three readers of the shared array
    at their three shares; the body uses nothing besides. -/
def proofData (c : Dev nD) : Dat τ (Elt F) Unit ℕ (UR sig nD τ) ℕ cfg1 c where
  A w := V c (Pipeline.arrRef spec1 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem entry_eq (c : Dev nD) (w : Fin cfg1.W) : (proofData V c).A w = V c (Pipeline.arrRef spec1 w) := by
  dsimp only [proofData]
theorem after_q (c : Dev nD) (t : Fin cfg1.N) : (proofData V c).after 0 t = tileOf V c 0 t := by dsimp only [proofData]
theorem after_k (c : Dev nD) (t : Fin cfg1.N) : (proofData V c).after 1 t = tileOf V c 1 t := by dsimp only [proofData]
theorem after_v (c : Dev nD) (t : Fin cfg1.N) : (proofData V c).after 2 t = tileOf V c 2 t := by dsimp only [proofData]
theorem after_out (c : Dev nD) (t : Fin cfg1.N) :
    (proofData V c).after 3 t = stored (tileOf V c 0 t) (tileOf V c 1 t) (tileOf V c 2 t) := by dsimp only [proofData]

theorem before_q (c : Dev nD) (t : Fin cfg1.N) (d) : (proofData V c).before 0 t d = tileOf V c 0 t :=
  held_q V (proofData V c) (entry_eq V c 0) (after_q V c) t d
theorem before_k (c : Dev nD) (t : Fin cfg1.N) (d) : (proofData V c).before 1 t d = tileOf V c 1 t :=
  held_k V (proofData V c) (entry_eq V c 1) (after_k V c) t d
theorem before_v (c : Dev nD) (t : Fin cfg1.N) (d) : (proofData V c).before 2 t d = tileOf V c 2 t :=
  held_v V (proofData V c) (entry_eq V c 2) (after_v V c) t d

/-- What the pipeline hands the body at point `t`, the windows one by one, -/
def handed (c : Dev nD) (t : Fin cfg1.N) : sProp 𝕄 :=
  iprop((proofData V c).Φ t.castSucc ∗ (proofData V c).owesAt () t.castSucc
    ∗ (∃ d, owns (c : Thread nD τ) (st1_0 t) fullShare ((proofData V c).before 0 t d))
    ∗ (∃ d, owns (c : Thread nD τ) (st1_1 t) fullShare ((proofData V c).before 1 t d))
    ∗ (∃ d, owns (c : Thread nD τ) (st1_2 t) fullShare ((proofData V c).before 2 t d))
    ∗ (∃ d, owns (c : Thread nD τ) (st1_3 t) fullShare ((proofData V c).before 3 t d)))

/-- and what the body hands back. -/
def returned (c : Dev nD) (t : Fin cfg1.N) : sProp 𝕄 :=
  iprop((proofData V c).Φ t.succ ∗ (proofData V c).owesAt () t.succ
    ∗ owns (c : Thread nD τ) (st1_0 t) fullShare ((proofData V c).after 0 t)
    ∗ owns (c : Thread nD τ) (st1_1 t) fullShare ((proofData V c).after 1 t)
    ∗ owns (c : Thread nD τ) (st1_2 t) fullShare ((proofData V c).after 2 t)
    ∗ owns (c : Thread nD τ) (st1_3 t) fullShare ((proofData V c).after 3 t))

/-- The body at any point: its inputs' buffers hold their blocks, so the triple applies; the rest passes through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before_q, before_k, before_v]
  rw [show (proofData V c).Φ t.succ = (proofData V c).Φ t.castSucc from rfl,
    show (proofData V c).owesAt () t.succ = (proofData V c).owesAt () t.castSucc from rfl,
    after_q, after_k, after_v, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W1, bigSep_W1]
  exact body_at V c t

end Cert.Kernel.Heads

end
-- ==== Proof.K.HeadsShare.lean ====
/-
  The attention region's three input windows read ONE array. Its readers hold that array at three shares — a half, and the
  two halves of the other half — that together are the whole: this module trades the array held whole for the three
  readers' holdings at the region's entry, and back at its exit, beside the output array held whole throughout.
-/
import proofs.«146471_j31877247271608_2_alg».proof.Proof.K.Heads

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the region's windows are two: the packed queries, keys and values, and the contexts. -/
theorem arrays_are : Finset.univ.image (Pipeline.arrRef spec1) = ({main_v10, main_v11} : Finset (Ref sig .tc)) := by decide

/-- The readers' three holdings of the packed array and the contexts' array held whole, at contents the readers agree on,
    are the two arrays held whole, and conversely. -/
theorem arrays_iff (c : Dev nD) (G : (w : Fin cfg1.W) → Buf (Elt F) ((cfg1.win w).arr.view.loc (c : Thread nD τ)))
    (packed : Buf (Elt F) ((c : Thread nD τ).loc main_v10)) (ctx : Buf (Elt F) ((c : Thread nD τ).loc main_v11))
    (h0 : G 0 = packed) (h1 : G 1 = packed) (h2 : G 2 = packed) (h3 : G 3 = ctx) :
    ((proofData V c).arrays G : sProp 𝕄)
      ⊣⊢ iprop((((c : Thread nD τ).loc main_v10) ↦{fullShare} packed) ∗ (((c : Thread nD τ).loc main_v11) ↦{fullShare} ctx)) := by
  have s0 : (cfg1.win 0).arr.view.set = Finset.univ := (arr_whole1 0).set_eq_univ
  have s1 : (cfg1.win 1).arr.view.set = Finset.univ := (arr_whole1 1).set_eq_univ
  have s2 : (cfg1.win 2).arr.view.set = Finset.univ := (arr_whole1 2).set_eq_univ
  have s3 : (cfg1.win 3).arr.view.set = Finset.univ := (arr_whole1 3).set_eq_univ
  unfold Pipeline.Dat.arrays
  rw [bigSep_W1, h0, h1, h2, h3]
  simp only [s0, s1, s2, s3]
  have hl := pointsTo_share (Ix := Unit) (Val := Elt F) (Name := ℕ) (U := UR sig nD τ) (Lvl := ℕ)
    (ℓ := (c : Thread nD τ).loc main_v10) (I := Finset.univ) (f := packed) (PosShare.mem_left_op_right fullShare)
  have hr := pointsTo_share (Ix := Unit) (Val := Elt F) (Name := ℕ) (U := UR sig nD τ) (Lvl := ℕ)
    (ℓ := (c : Thread nD τ).loc main_v10) (I := Finset.univ) (f := packed) (PosShare.mem_left_op_right fullShare.right)
  constructor
  · show iprop((((c : Thread nD τ).loc main_v10) ↦{shareQ} packed) ∗ (((c : Thread nD τ).loc main_v10) ↦{shareK} packed)
        ∗ (((c : Thread nD τ).loc main_v10) ↦{shareV} packed) ∗ (((c : Thread nD τ).loc main_v11) ↦{fullShare} ctx)) ⊢ _
    iintro ⟨Hq, Hk, Hv, Hc⟩
    isplitl [Hq Hk Hv]
    · iapply hl.2
      isplitl [Hq]; · iexact Hq
      iapply hr.2
      isplitl [Hk]; · iexact Hk
      iexact Hv
    iexact Hc
  · show _ ⊢ iprop((((c : Thread nD τ).loc main_v10) ↦{shareQ} packed) ∗ (((c : Thread nD τ).loc main_v10) ↦{shareK} packed)
        ∗ (((c : Thread nD τ).loc main_v10) ↦{shareV} packed) ∗ (((c : Thread nD τ).loc main_v11) ↦{fullShare} ctx))
    iintro ⟨Hp, Hc⟩
    ihave H := hl.1 $$ Hp
    icases H with ⟨Hq, Hr⟩
    ihave H' := hr.1 $$ Hr
    icases H' with ⟨Hk, Hv⟩
    isplitl [Hq]; · iexact Hq
    isplitl [Hk]; · iexact Hk
    isplitl [Hv]; · iexact Hv
    iexact Hc

/-- ENTRY: a core's unscoped buffers at contents `W` give the region's arrays at the proof data's entry contents, and
    the rest. -/
theorem arrays_of_bufs (c : Dev nD) :
    (unscopedBufs c (V c) : sProp 𝕄) ⊢ iprop((proofData V c).arrays ((proofData V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs
  rw [show Finset.univ.image (Pipeline.arrRef (cfgs 1).spec) = ({main_v10, main_v11} : Finset (Ref sig .tc)) from arrays_are,
      bigSep_insert (by decide), bigSep_singleton]
  exact (arrays_iff V c _ (V c main_v10) (V c main_v11) rfl rfl rfl rfl).2

/-- EXIT: the region's arrays at contents `G` and the rest at `W` are the core's unscoped buffers at any contents `W'`
    that have the arrays at `G` and agree with `W` off them. -/
theorem bufs_of_arrays (c : Dev nD) (W' : (b : Ref sig .tc) → Buf (Elt F) ((c : Thread nD τ).loc b))
    (G : (w : Fin cfg1.W) → Buf (Elt F) ((cfg1.win w).arr.view.loc (c : Thread nD τ)))
    (h0 : G 0 = W' main_v10) (h1 : G 1 = W' main_v10) (h2 : G 2 = W' main_v10) (h3 : G 3 = W' main_v11)
    (hrest : ∀ b, b ∉ Finset.univ.image (Pipeline.arrRef spec1) → W' b = V c b) :
    iprop((proofData V c).arrays G ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono ?_ (Entails.of_eq ?_)
  · unfold Pipeline.arrBufs
    rw [show Finset.univ.image (Pipeline.arrRef (cfgs 1).spec) = ({main_v10, main_v11} : Finset (Ref sig .tc)) from arrays_are,
      bigSep_insert (by decide), bigSep_singleton]
    exact (arrays_iff V c G (W' main_v10) (W' main_v11) h0 h1 h2 h3).1
  · unfold Pipeline.unscopedRest
    exact bigSep_congr fun b hb => by rw [hrest b (Finset.mem_sdiff.mp hb).2]

end Cert.Kernel.Heads

end
-- ==== Proof.K.ProjOut.lean ====
/-
  The output projection as one pipelined region: 8 grid points, point t taking rows 1024 t .. 1024 t + 1023 of the
  [8192, 1024] merged contexts, the whole [1024, 1024] weight matrix and the [1, 1024] bias row, and writing the same
  rows of the [8192, 1024] result. This module holds the region's half of the run at any float instance: the blocks
  the windows stage, what the body leaves in the output tile, the body's triple and the pipeline's proof data.
-/
import proofs.«146471_j31877247271608_2_alg».proof.Proof.Gen.Kernel.Launch
import proofs.«146471_j31877247271608_2_alg».proof.Proof.Gen.Kernel.Skeleton
import proofs.«146471_j31877247271608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ProjOut

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of window `w` at grid point `t`, read off the window's array as the region finds it. -/
def tileOf (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetches it or the block
    index has not moved since the fetch: the rows tile, -/
theorem held_rows {c : Dev nD} (dat : Dat τ (Elt F) Unit ℕ (UR sig nD τ) ℕ cfg2 c) (hA : dat.A 0 = V c (Pipeline.arrRef spec2 0))
    (hafter : ∀ t, dat.after 0 t = tileOf V c 0 t) (t : Fin cfg2.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the weight matrix, -/
theorem held_weight {c : Dev nD} (dat : Dat τ (Elt F) Unit ℕ (UR sig nD τ) ℕ cfg2 c) (hA : dat.A 1 = V c (Pipeline.arrRef spec2 1))
    (hafter : ∀ t, dat.after 1 t = tileOf V c 1 t) (t : Fin cfg2.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the bias row. -/
theorem held_bias {c : Dev nD} (dat : Dat τ (Elt F) Unit ℕ (UR sig nD τ) ℕ cfg2 c) (hA : dat.A 2 = V c (Pipeline.arrRef spec2 2))
    (hafter : ∀ t, dat.after 2 t = tileOf V c 2 t) (t : Fin cfg2.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectX : Rect S1024x1024 := Rect.unit (s := S1024x1024) ![0, 0] S1024x1024.size inb_S1024x1024_S1024x1024_0_0
abbrev rectW : Rect S1024x1024 := Rect.unit (s := S1024x1024) ![0, 0] S1024x1024.size inb_S1024x1024_S1024x1024_0_0
abbrev rectB : Rect S1x1024 := Rect.unit (s := S1x1024) ![0, 0] S1x1024.size inb_S1x1024_S1x1024_0_0
abbrev rectO : Rect S1024x1024 := Rect.unit (s := S1024x1024) ![0, 0] S1024x1024.size inb_S1024x1024_S1024x1024_0_0

/-- What the body leaves in the output tile: its one store, of the product of the rows tile with the weight matrix plus
    the bias row, over the whole tile. -/
def stored (x : Vec F S1024x1024 .bf16) (w : Vec F S1024x1024 .bf16) (bias : Vec F S1x1024 .f32) : Vec F S1024x1024 .f32 :=
  View.canon [⟨rectO, k2_pay1 (View.ld x rectX) (View.ld w rectW) (View.ld bias rectB)⟩]

/-- The one store covers the tile. -/
theorem stored_covers (p : Vec F S1024x1024 .f32) (y : S1024x1024.Idx) :
    ∃ pc ∈ ([⟨rectO, p⟩] : List (View.Piece (Elt F) S1024x1024 .f32)), y ∈ pc.1.set :=
  View.cover_of_tiled [⟨rectO, p⟩] S1024x1024.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid2.Coords) (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1024 .f32) (h3 : a3.IsWhole)
    (x : Vec F S1024x1024 .bf16) (w : Vec F S1024x1024 .bf16) (bias : Vec F S1x1024 .f32) (K : PUnit → sProp 𝕄) :
    iprop(owns (c : Thread nD τ) a0 fullShare x ∗ owns (c : Thread nD τ) a1 fullShare w ∗ owns (c : Thread nD τ) a2 fullShare bias ∗ (∃ d, owns (c : Thread nD τ) a3 fullShare d)
        ∗ (iprop(owns (c : Thread nD τ) a0 fullShare x ∗ owns (c : Thread nD τ) a1 fullShare w ∗ owns (c : Thread nD τ) a2 fullShare bias
            ∗ owns (c : Thread nD τ) a3 fullShare (stored x w bias)) -∗ K ⟨⟩))
      ⊢ wp frame (wpE (defs₀ (F := F)) Variants.none c none) E (cc2__linear_kernel i a0 h0 a1 h1 a2 h2 a3 h3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the body uses nothing besides. -/
def proofData (c : Dev nD) : Dat τ (Elt F) Unit ℕ (UR sig nD τ) ℕ cfg2 c where
  A w := V c (Pipeline.arrRef spec2 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec2 c
  q _ := fullShare
  owed _ := 0

theorem entry_eq (c : Dev nD) (w : Fin cfg2.W) : (proofData V c).A w = V c (Pipeline.arrRef spec2 w) := by
  dsimp only [proofData]
theorem after_rows (c : Dev nD) (t : Fin cfg2.N) : (proofData V c).after 0 t = tileOf V c 0 t := by dsimp only [proofData]
theorem after_weight (c : Dev nD) (t : Fin cfg2.N) : (proofData V c).after 1 t = tileOf V c 1 t := by dsimp only [proofData]
theorem after_bias (c : Dev nD) (t : Fin cfg2.N) : (proofData V c).after 2 t = tileOf V c 2 t := by dsimp only [proofData]
theorem after_out (c : Dev nD) (t : Fin cfg2.N) :
    (proofData V c).after 3 t = stored (tileOf V c 0 t) (tileOf V c 1 t) (tileOf V c 2 t) := by dsimp only [proofData]

theorem before_rows (c : Dev nD) (t : Fin cfg2.N) (d) : (proofData V c).before 0 t d = tileOf V c 0 t :=
  held_rows V (proofData V c) (entry_eq V c 0) (after_rows V c) t d
theorem before_weight (c : Dev nD) (t : Fin cfg2.N) (d) : (proofData V c).before 1 t d = tileOf V c 1 t :=
  held_weight V (proofData V c) (entry_eq V c 1) (after_weight V c) t d
theorem before_bias (c : Dev nD) (t : Fin cfg2.N) (d) : (proofData V c).before 2 t d = tileOf V c 2 t :=
  held_bias V (proofData V c) (entry_eq V c 2) (after_bias V c) t d

/-- What the pipeline hands the body at point `t`, the windows one by one, -/
def handed (c : Dev nD) (t : Fin cfg2.N) : sProp 𝕄 :=
  iprop((proofData V c).Φ t.castSucc ∗ (proofData V c).owesAt () t.castSucc
    ∗ (∃ d, owns (c : Thread nD τ) (st2_0 t) fullShare ((proofData V c).before 0 t d))
    ∗ (∃ d, owns (c : Thread nD τ) (st2_1 t) fullShare ((proofData V c).before 1 t d))
    ∗ (∃ d, owns (c : Thread nD τ) (st2_2 t) fullShare ((proofData V c).before 2 t d))
    ∗ (∃ d, owns (c : Thread nD τ) (st2_3 t) fullShare ((proofData V c).before 3 t d)))

/-- and what the body hands back. -/
def returned (c : Dev nD) (t : Fin cfg2.N) : sProp 𝕄 :=
  iprop((proofData V c).Φ t.succ ∗ (proofData V c).owesAt () t.succ
    ∗ owns (c : Thread nD τ) (st2_0 t) fullShare ((proofData V c).after 0 t)
    ∗ owns (c : Thread nD τ) (st2_1 t) fullShare ((proofData V c).after 1 t)
    ∗ owns (c : Thread nD τ) (st2_2 t) fullShare ((proofData V c).after 2 t)
    ∗ owns (c : Thread nD τ) (st2_3 t) fullShare ((proofData V c).after 3 t))

/-- The body at any point: its inputs' buffers hold their blocks, so the triple applies; the rest passes through. -/
theorem body_at (c : Dev nD) (t : Fin cfg2.N) :
    handed V c t ⊢ wp frame (wpE (defs₀ (F := F)) Variants.none c none) Set.univ (bodyAt2 t) (fun _ => returned V c t) := by
  unfold handed returned bodyAt2
  simp only [before_rows, before_weight, before_bias]
  rw [show (proofData V c).Φ t.succ = (proofData V c).Φ t.castSucc from rfl,
    show (proofData V c).owesAt () t.succ = (proofData V c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W2, bigSep_W2]
  exact body_at V c t

end Cert.Kernel.ProjOut

end
-- ==== Proof.K.Whole.lean ====
/-
  The whole program as a run. @main is four stretches of host operations around three pipelined regions:
  weights and biases packed and the input flattened to [8192, 1024]; the fused projection; a reshape to
  [4, 2048, 3072]; the attention proper; a reshape to [8192, 1024]; the output projection; a reshape to
  [4, 2048, 1024]. The contents of every unscoped buffer are followed from the launch through the seven items — a host
  stretch applies its operations, a region overwrites its one result array with what its write-backs leave — and
  every weakly fair execution is shown to terminate, faulting nowhere, with the memory at the last of these contents.
  No item writes an argument, so each argument ends as launched.
-/
import proofs.«146471_j31877247271608_2_alg».proof.Proof.K.ProjIn
import proofs.«146471_j31877247271608_2_alg».proof.Proof.K.HeadsShare
import proofs.«146471_j31877247271608_2_alg».proof.Proof.K.ProjOut
import proofs.«146471_j31877247271608_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each item -/

/-- At launch. -/
abbrev at0 (c : Dev nD) : Valuation τ sig (Elt F) := fun b => m (c, b)
/-- After the first host stretch: the packed weights and biases, the flattened input. -/
abbrev at1 (c : Dev nD) : Valuation τ sig (Elt F) := StableHlo.after hostOps0 (at0 m c)
abbrev in1 (c : Dev nD) (b : Ref sig .tc) : Buf (Elt F) ((c : Thread nD τ).loc b) := at1 m c b
/-- After the fused projection: its result array at what the write-backs leave. -/
def at2 (c : Dev nD) : Valuation τ sig (Elt F) :=
  Function.update (at1 m c) main_v9 ((ProjIn.proofData (in1 m) c).arrAt 3 cfg0.N)
abbrev in2 (c : Dev nD) (b : Ref sig .tc) : Buf (Elt F) ((c : Thread nD τ).loc b) := at2 m c b
/-- After the reshape to [4, 2048, 3072]. -/
abbrev at3 (c : Dev nD) : Valuation τ sig (Elt F) := StableHlo.after hostOps1 (at2 m c)
abbrev in3 (c : Dev nD) (b : Ref sig .tc) : Buf (Elt F) ((c : Thread nD τ).loc b) := at3 m c b
/-- After the attention proper. -/
def at4 (c : Dev nD) : Valuation τ sig (Elt F) :=
  Function.update (at3 m c) main_v11 ((Heads.proofData (in3 m) c).arrAt 3 cfg1.N)
abbrev in4 (c : Dev nD) (b : Ref sig .tc) : Buf (Elt F) ((c : Thread nD τ).loc b) := at4 m c b
/-- After the reshape to [8192, 1024]. -/
abbrev at5 (c : Dev nD) : Valuation τ sig (Elt F) := StableHlo.after hostOps2 (at4 m c)
abbrev in5 (c : Dev nD) (b : Ref sig .tc) : Buf (Elt F) ((c : Thread nD τ).loc b) := at5 m c b
/-- After the output projection. -/
def at6 (c : Dev nD) : Valuation τ sig (Elt F) :=
  Function.update (at5 m c) main_v13 ((ProjOut.proofData (in5 m) c).arrAt 3 cfg2.N)
abbrev in6 (c : Dev nD) (b : Ref sig .tc) : Buf (Elt F) ((c : Thread nD τ).loc b) := at6 m c b
/-- After the last reshape: the end. -/
abbrev at7 (c : Dev nD) : Valuation τ sig (Elt F) := StableHlo.after hostOps3 (at6 m c)

theorem at2_result (c : Dev nD) : at2 m c main_v9 = (ProjIn.proofData (in1 m) c).arrAt 3 cfg0.N := by
  unfold at2; exact Function.update_self ..
theorem at2_other (c : Dev nD) (r : Ref sig .tc) (h : r ≠ main_v9) : at2 m c r = at1 m c r := by
  unfold at2; exact Function.update_of_ne (StableHlo.devRef_ne_of_ne h) ..
theorem at4_result (c : Dev nD) : at4 m c main_v11 = (Heads.proofData (in3 m) c).arrAt 3 cfg1.N := by
  unfold at4; exact Function.update_self ..
theorem at4_other (c : Dev nD) (r : Ref sig .tc) (h : r ≠ main_v11) : at4 m c r = at3 m c r := by
  unfold at4; exact Function.update_of_ne (StableHlo.devRef_ne_of_ne h) ..
theorem at6_result (c : Dev nD) : at6 m c main_v13 = (ProjOut.proofData (in5 m) c).arrAt 3 cfg2.N := by
  unfold at6; exact Function.update_self ..
theorem at6_other (c : Dev nD) (r : Ref sig .tc) (h : r ≠ main_v13) : at6 m c r = at5 m c r := by
  unfold at6; exact Function.update_of_ne (StableHlo.devRef_ne_of_ne h) ..

/-- A buffer no item writes ends as launched. -/
theorem at7_untouched (c : Dev nD) (r : Ref sig .tc) (h0 : r ∉ hostOps0_W) (h1 : r ∉ hostOps1_W) (h2 : r ∉ hostOps2_W)
    (h3 : r ∉ hostOps3_W) (n9 : r ≠ main_v9) (n11 : r ≠ main_v11) (n13 : r ≠ main_v13) :
    at7 m c r = m ((c : Thread nD τ).loc r) :=
  (StableHlo.after_of_writes_sub hostOps3 _ hostOps3_writes h3).trans <|
    (at6_other m c r n13).trans <| (StableHlo.after_of_writes_sub hostOps2 _ hostOps2_writes h2).trans <|
    (at4_other m c r n11).trans <| (StableHlo.after_of_writes_sub hostOps1 _ hostOps1_writes h1).trans <|
    (at2_other m c r n9).trans <| (StableHlo.after_of_writes_sub hostOps0 _ hostOps0_writes h0).trans rfl

/-! ## The proof data and what rides along -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => ProjIn.proofData (in1 m) c
  | ⟨1, _⟩ => fun c => Heads.proofData (in3 m) c
  | ⟨2, _⟩ => fun c => ProjOut.proofData (in5 m) c
abbrev novar : Variants := Variants.none
/-- No core owes another anything: no level is assigned. -/
abbrev nolev : GSem nD τ sig → Finset Unit := fun _ => ∅
abbrev lev0 : GSem nD τ sig → Unit → ℕ := fun _ _ => 0
/-- Beside the buffers, through every item: the core's generator register at some state, and that it owes nothing. -/
abbrev aside (c : Dev nD) : sProp 𝕄 := iprop((∃ r, prngReg c r) ∗ ∃ W, owes (c : Thread nD τ) (0 : CellTallies nD τ sig Unit) W)

/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ novar nolev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the `owes`. -/
abbrev atEnd (c : Dev nD) : sProp 𝕄 := iprop(StableHlo.held (c : Thread nD τ) (Pipeline.ucRefs τ sig) (at7 m c) ∗ ∃ r, prngReg c r)

/-! ## The regions' arrays at their exits -/

theorem exit0 (c : Dev nD) (w : Fin cfg0.W) : (pdats m 0 c).arrAt w cfg0.N = in2 m c (Pipeline.arrRef spec0 w) :=
  match w with
  | ⟨0, _⟩ => ((ProjIn.proofData (in1 m) c).arrAt_in 0 rfl _).trans ((ProjIn.entry_eq (in1 m) c 0).trans (at2_other m c _ (by decide)).symm)
  | ⟨1, _⟩ => ((ProjIn.proofData (in1 m) c).arrAt_in 1 rfl _).trans ((ProjIn.entry_eq (in1 m) c 1).trans (at2_other m c _ (by decide)).symm)
  | ⟨2, _⟩ => ((ProjIn.proofData (in1 m) c).arrAt_in 2 rfl _).trans ((ProjIn.entry_eq (in1 m) c 2).trans (at2_other m c _ (by decide)).symm)
  | ⟨3, _⟩ => (at2_result m c).symm
theorem rest0 (c : Dev nD) : ∀ b, b ∉ Finset.univ.image (Pipeline.arrRef spec0) → in2 m c b = in1 m c b :=
  fun b hb => at2_other m c b fun e => hb (e ▸ Finset.mem_image.mpr ⟨3, Finset.mem_univ _, rfl⟩)

theorem rest1 (c : Dev nD) : ∀ b, b ∉ Finset.univ.image (Pipeline.arrRef spec1) → in4 m c b = in3 m c b :=
  fun b hb => at4_other m c b fun e => hb (e ▸ Finset.mem_image.mpr ⟨3, Finset.mem_univ _, rfl⟩)

theorem exit2 (c : Dev nD) (w : Fin cfg2.W) : (pdats m 2 c).arrAt w cfg2.N = in6 m c (Pipeline.arrRef spec2 w) :=
  match w with
  | ⟨0, _⟩ => ((ProjOut.proofData (in5 m) c).arrAt_in 0 rfl _).trans ((ProjOut.entry_eq (in5 m) c 0).trans (at6_other m c _ (by decide)).symm)
  | ⟨1, _⟩ => ((ProjOut.proofData (in5 m) c).arrAt_in 1 rfl _).trans ((ProjOut.entry_eq (in5 m) c 1).trans (at6_other m c _ (by decide)).symm)
  | ⟨2, _⟩ => ((ProjOut.proofData (in5 m) c).arrAt_in 2 rfl _).trans ((ProjOut.entry_eq (in5 m) c 2).trans (at6_other m c _ (by decide)).symm)
  | ⟨3, _⟩ => (at6_result m c).symm
theorem rest2 (c : Dev nD) : ∀ b, b ∉ Finset.univ.image (Pipeline.arrRef spec2) → in6 m c b = in5 m c b :=
  fun b hb => at6_other m c b fun e => hb (e ▸ Finset.mem_image.mpr ⟨3, Finset.mem_univ _, rfl⟩)

/-! ## The regions as segments -/

set_option backward.isDefEq.respectTransparency.types false in
/-- The fused projection, entered from `at1` and left at `at2`: its arrays are split out of the unscoped buffers and put
    back at the exit contents; the generator register goes into the body's invariant and comes back; nothing is owed. -/
def regionIn : Pipeline.RegionSeg (pcfgs (F := F)) adm (pdats m) () defs₀ novar nolev lev0 0 where
  win := launch0.win.to₀
  block_pos := launch0.block_pos
  stage_whole := launch0.stage_whole
  K := PEmpty
  osem k := k.elim
  ho := Pipeline.OwnSemFacts.none _
  hbody c := (ProjIn.obligation (in1 m) c).loose
  hwaits := Pipeline.hwaits_of_owed_zero _ _ _ _ nolev lev0 0 fun _ _ => rfl
  pre c := iprop(StableHlo.held (c : Thread nD τ) (Pipeline.ucRefs τ sig) (at1 m c) ∗ aside c)
  post c := iprop(StableHlo.held (c : Thread nD τ) (Pipeline.ucRefs τ sig) (at2 m c) ∗ aside c)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (in2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The attention proper, entered from `at3` and left at `at4`. Its three input windows read one array: the array held
    whole is traded for the readers' three shares at the entry and back at the exit. -/
def regionHeads : Pipeline.RegionSeg (pcfgs (F := F)) adm (pdats m) () defs₀ novar nolev lev0 1 where
  win := winFacts₀1
  block_pos := block_pos1
  stage_whole := stage_whole1
  K := PEmpty
  osem k := k.elim
  ho := Pipeline.OwnSemFacts.none _
  hbody c := (Heads.obligation (in3 m) c).loose
  hwaits := Pipeline.hwaits_of_owed_zero _ _ _ _ nolev lev0 1 fun _ _ => rfl
  pre c := iprop(StableHlo.held (c : Thread nD τ) (Pipeline.ucRefs τ sig) (at3 m c) ∗ aside c)
  post c := iprop(StableHlo.held (c : Thread nD τ) (Pipeline.ucRefs τ sig) (at4 m c) ∗ aside c)
  X c := iprop(∃ r, prngReg c r)
  Y c := iprop(∃ r, prngReg c r)
  Z c := Pipeline.unscopedRest (Ix := Unit) (Name := ℕ) (U := UR sig nD τ) (Lvl := ℕ) spec1 c (in3 m c)
  hentry c := by
    rw [Pipeline.ownSems0_none]
    have hsplit := Heads.arrays_of_bufs (in3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (in3 m c))
        ⊢ (unscopedBufs c (in4 m c) : sProp 𝕄) := Heads.bufs_of_arrays (in3 m) c (in4 m c) ((pdats m 1 c).arrAt · cfg1.N)
      (((Heads.proofData (in3 m) c).arrAt_in 0 rfl _).trans ((Heads.entry_eq (in3 m) c 0).trans (at4_other m c _ (by decide)).symm))
      (((Heads.proofData (in3 m) c).arrAt_in 1 rfl _).trans ((Heads.entry_eq (in3 m) c 1).trans (at4_other m c _ (by decide)).symm))
      (((Heads.proofData (in3 m) c).arrAt_in 2 rfl _).trans ((Heads.entry_eq (in3 m) c 2).trans (at4_other m c _ (by decide)).symm))
      (at4_result m c).symm (rest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection, entered from `at5` and left at `at6`. -/
def regionOut : Pipeline.RegionSeg (pcfgs (F := F)) adm (pdats m) () defs₀ novar nolev lev0 2 where
  win := launch2.win.to₀
  block_pos := launch2.block_pos
  stage_whole := launch2.stage_whole
  K := PEmpty
  osem k := k.elim
  ho := Pipeline.OwnSemFacts.none _
  hbody c := (ProjOut.obligation (in5 m) c).loose
  hwaits := Pipeline.hwaits_of_owed_zero _ _ _ _ nolev lev0 2 fun _ _ => rfl
  pre c := iprop(StableHlo.held (c : Thread nD τ) (Pipeline.ucRefs τ sig) (at5 m c) ∗ aside c)
  post c := iprop(StableHlo.held (c : Thread nD τ) (Pipeline.ucRefs τ sig) (at6 m c) ∗ aside c)
  X c := iprop(∃ r, prngReg c r)
  Y c := iprop(∃ r, prngReg c r)
  Z c := Pipeline.unscopedRest (Ix := Unit) (Name := ℕ) (U := UR sig nD τ) (Lvl := ℕ) spec2 c (in5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in5 m c) (in6 m c) ((pdats m 2 c).arrAt · cfg2.N) (exit2 m c) (rest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's seven items in order. -/
abbrev items : List (Pipeline.Seg (pcfgs (F := F)) adm (pdats m) () defs₀ novar nolev lev0) :=
  [ .host (stretch hostOps0 hostOps0_sub hostOps0_fresh (at0 m)),
    .region (regionIn m),
    .host (stretch hostOps1 hostOps1_sub hostOps1_fresh (at2 m)),
    .region (regionHeads m),
    .host (stretch hostOps2 hostOps2_sub hostOps2_fresh (at4 m)),
    .region (regionOut m),
    .host (stretch hostOps3 hostOps3_sub hostOps3_fresh (at6 m)) ]

theorem main_is (c : Dev nD) : main (F := F) c = Pipeline.Seg.run (items m) := (main_chain c).trans (by chain_rfl)

set_option backward.isDefEq.respectTransparency.types false in
/-- THE RUN, at any float instance: from any memory with zero counters every weakly fair execution of @main terminates,
    faulting nowhere, and every unscoped buffer ends at the last of the contents followed above. -/
theorem run : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) adm (pdats m) () cellOf_inj emb₁ defs₀ novar nolev lev0 m ρ main (items m)
    (fun c Q => by rw [main_is m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ aside c)) (Tₙ := atEnd m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (at7 m c) ∗ aside c) : sProp 𝕄) ⊢ _
      iintro ⟨Hh, Hp, Ho⟩
      isplitl [Hh Hp]
      · isplitl [Hh]; · iexact Hh
        iexact Hp
      iexact Ho⟩)
    (hinit := by
      refine Pipeline.initEach nolev lev0 fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

/-- Read at an unscoped buffer of the core. -/
theorem run_at (r : PUnit × MemSt nD τ sig (Elt F)) (h : ∀ c : Dev nD, ∀ b ∈ Pipeline.ucRefs τ sig, r.2.mem (((c : Thread nD τ)).1, b) = at7 m c b)
    (c : Dev nD) (b : Ref sig .tc) (hb : ¬ (Proc.devRef .tc b : DevRef τ sig).isScoped) :
    r.2.mem ((c.tc : Thread nD τ).loc b) = at7 m c b := h c _ (mem_uc b hb)

end Cert.Kernel.Whole

end
-- ==== Proof.K.Frame.lean ====
/-
  The frame: no item of the run writes an argument — the host stretches write their own results, each region its one
  result array — so every argument buffer ends holding what it held at launch.
-/
import proofs.«146471_j31877247271608_2_alg».proof.Proof.K.Whole

noncomputable section

namespace Cert.Kernel.Whole

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An unscoped buffer no item writes reads, after the run, what it held at launch. -/
theorem kept (r : PUnit × MemSt nD τ sig (Elt F))
    (h : ∀ c : Dev nD, ∀ b ∈ Pipeline.ucRefs τ sig, r.2.mem (((c : Thread nD τ)).1, b) = at7 m c b) (c : Dev nD) (b : Ref sig .tc)
    (hb : ¬ (Proc.devRef .tc b : DevRef τ sig).isScoped) (h0 : b ∉ hostOps0_W) (h1 : b ∉ hostOps1_W) (h2 : b ∉ hostOps2_W)
    (h3 : b ∉ hostOps3_W) (n9 : b ≠ main_v9) (n11 : b ≠ main_v11) (n13 : b ≠ main_v13) :
    r.2.mem ((c.tc : Thread nD τ).loc b) = m ((c.tc : Thread nD τ).loc b) :=
  (run_at m r h c b hb).trans (at7_untouched m c b h0 h1 h2 h3 n9 n11 n13)

/-- The nine arguments end as launched. -/
theorem args_kept (r : PUnit × MemSt nD τ sig (Elt F))
    (h : ∀ c : Dev nD, ∀ b ∈ Pipeline.ucRefs τ sig, r.2.mem (((c : Thread nD τ)).1, b) = at7 m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨kept m r h c main_arg0 (by decide) (by decide) (by decide) (by decide) (by decide) (by decide) (by decide) (by decide),
    kept m r h c main_arg1 (by decide) (by decide) (by decide) (by decide) (by decide) (by decide) (by decide) (by decide),
    kept m r h c main_arg2 (by decide) (by decide) (by decide) (by decide) (by decide) (by decide) (by decide) (by decide),
    kept m r h c main_arg3 (by decide) (by decide) (by decide) (by decide) (by decide) (by decide) (by decide) (by decide),
    kept m r h c main_arg4 (by decide) (by decide) (by decide) (by decide) (by decide) (by decide) (by decide) (by decide),
    kept m r h c main_arg5 (by decide) (by decide) (by decide) (by decide) (by decide) (by decide) (by decide) (by decide),
    kept m r h c main_arg6 (by decide) (by decide) (by decide) (by decide) (by decide) (by decide) (by decide) (by decide),
    kept m r h c main_arg7 (by decide) (by decide) (by decide) (by decide) (by decide) (by decide) (by decide) (by decide),
    kept m r h c main_arg8 (by decide) (by decide) (by decide) (by decide) (by decide) (by decide) (by decide) (by decide)⟩

/-- Every weakly fair execution terminates, faulting nowhere, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run m ρ)

end Cert.Kernel.Whole

end
-- ==== Proof.KI.ProjIn.lean ====
/-
  The fused query / key / value projection as one pipelined region: 16 grid points, point t taking rows 512 t .. 512 t + 511
  of the [8192, 1024] input, the whole [1024, 3072] weight matrix and the [1, 3072] bias row, and writing the same rows
  of the [8192, 3072] result. This module holds the region's half of the run at any float instance: the blocks the
  windows stage, what the body leaves in the output tile, the body's triple and the pipeline's proof data.
-/
import proofs.«146471_j31877247271608_2_alg».proof.Proof.Gen.KernelIdeal.Launch
import proofs.«146471_j31877247271608_2_alg».proof.Proof.Gen.KernelIdeal.Skeleton
import proofs.«146471_j31877247271608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ProjIn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of window `w` at grid point `t`, read off the window's array as the region finds it. -/
def tileOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetches it or the block
    index has not moved since the fetch: the rows tile, -/
theorem held_rows {c : Dev nD} (dat : Dat τ (Elt F) Unit ℕ (UR sig nD τ) ℕ cfg0 c) (hA : dat.A 0 = V c (Pipeline.arrRef spec0 0))
    (hafter : ∀ t, dat.after 0 t = tileOf V c 0 t) (t : Fin cfg0.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the weight matrix, -/
theorem held_weight {c : Dev nD} (dat : Dat τ (Elt F) Unit ℕ (UR sig nD τ) ℕ cfg0 c) (hA : dat.A 1 = V c (Pipeline.arrRef spec0 1))
    (hafter : ∀ t, dat.after 1 t = tileOf V c 1 t) (t : Fin cfg0.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the bias row. -/
theorem held_bias {c : Dev nD} (dat : Dat τ (Elt F) Unit ℕ (UR sig nD τ) ℕ cfg0 c) (hA : dat.A 2 = V c (Pipeline.arrRef spec0 2))
    (hafter : ∀ t, dat.after 2 t = tileOf V c 2 t) (t : Fin cfg0.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectX : Rect S512x1024 := Rect.unit (s := S512x1024) ![0, 0] S512x1024.size inb_S512x1024_S512x1024_0_0
abbrev rectW : Rect S1024x3072 := Rect.unit (s := S1024x3072) ![0, 0] S1024x3072.size inb_S1024x3072_S1024x3072_0_0
abbrev rectB : Rect S1x3072 := Rect.unit (s := S1x3072) ![0, 0] S1x3072.size inb_S1x3072_S1x3072_0_0
abbrev rectO : Rect S512x3072 := Rect.unit (s := S512x3072) ![0, 0] S512x3072.size inb_S512x3072_S512x3072_0_0

/-- What the body leaves in the output tile: its one store, of the product of the rows tile with the weight matrix plus
    the bias row, over the whole tile. -/
def stored (x : Vec F S512x1024 .f32) (w : Vec F S1024x3072 .bf16) (bias : Vec F S1x3072 .f32) : Vec F S512x3072 .bf16 :=
  View.canon [⟨rectO, k0_pay1 (View.ld x rectX) (View.ld w rectW) (View.ld bias rectB)⟩]

/-- The one store covers the tile. -/
theorem stored_covers (p : Vec F S512x3072 .bf16) (y : S512x3072.Idx) :
    ∃ pc ∈ ([⟨rectO, p⟩] : List (View.Piece (Elt F) S512x3072 .bf16)), y ∈ pc.1.set :=
  View.cover_of_tiled [⟨rectO, p⟩] S512x3072.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid0.Coords) (a0 : Memref sig .tc .vmem S512x1024 .f32) (h0 : a0.IsWhole) (a1 : Memref sig .tc .vmem S1024x3072 .bf16) (h1 : a1.IsWhole)
    (a2 : Memref sig .tc .vmem S1x3072 .f32) (h2 : a2.IsWhole) (a3 : Memref sig .tc .vmem S512x3072 .bf16) (h3 : a3.IsWhole)
    (x : Vec F S512x1024 .f32) (w : Vec F S1024x3072 .bf16) (bias : Vec F S1x3072 .f32) (K : PUnit → sProp 𝕄) :
    iprop(owns (c : Thread nD τ) a0 fullShare x ∗ owns (c : Thread nD τ) a1 fullShare w ∗ owns (c : Thread nD τ) a2 fullShare bias ∗ (∃ d, owns (c : Thread nD τ) a3 fullShare d)
        ∗ (iprop(owns (c : Thread nD τ) a0 fullShare x ∗ owns (c : Thread nD τ) a1 fullShare w ∗ owns (c : Thread nD τ) a2 fullShare bias
            ∗ owns (c : Thread nD τ) a3 fullShare (stored x w bias)) -∗ K ⟨⟩))
      ⊢ wp frame (wpE (defs₀ (F := F)) Variants.none c none) E (cc0__qkv_kernel i a0 h0 a1 h1 a2 h2 a3 h3) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the body uses nothing besides. -/
def proofData (c : Dev nD) : Dat τ (Elt F) Unit ℕ (UR sig nD τ) ℕ cfg0 c where
  A w := V c (Pipeline.arrRef spec0 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec0 c
  q _ := fullShare
  owed _ := 0

theorem entry_eq (c : Dev nD) (w : Fin cfg0.W) : (proofData V c).A w = V c (Pipeline.arrRef spec0 w) := by
  dsimp only [proofData]
theorem after_rows (c : Dev nD) (t : Fin cfg0.N) : (proofData V c).after 0 t = tileOf V c 0 t := by dsimp only [proofData]
theorem after_weight (c : Dev nD) (t : Fin cfg0.N) : (proofData V c).after 1 t = tileOf V c 1 t := by dsimp only [proofData]
theorem after_bias (c : Dev nD) (t : Fin cfg0.N) : (proofData V c).after 2 t = tileOf V c 2 t := by dsimp only [proofData]
theorem after_out (c : Dev nD) (t : Fin cfg0.N) :
    (proofData V c).after 3 t = stored (tileOf V c 0 t) (tileOf V c 1 t) (tileOf V c 2 t) := by dsimp only [proofData]

theorem before_rows (c : Dev nD) (t : Fin cfg0.N) (d) : (proofData V c).before 0 t d = tileOf V c 0 t :=
  held_rows V (proofData V c) (entry_eq V c 0) (after_rows V c) t d
theorem before_weight (c : Dev nD) (t : Fin cfg0.N) (d) : (proofData V c).before 1 t d = tileOf V c 1 t :=
  held_weight V (proofData V c) (entry_eq V c 1) (after_weight V c) t d
theorem before_bias (c : Dev nD) (t : Fin cfg0.N) (d) : (proofData V c).before 2 t d = tileOf V c 2 t :=
  held_bias V (proofData V c) (entry_eq V c 2) (after_bias V c) t d

/-- What the pipeline hands the body at point `t`, the windows one by one, -/
def handed (c : Dev nD) (t : Fin cfg0.N) : sProp 𝕄 :=
  iprop((proofData V c).Φ t.castSucc ∗ (proofData V c).owesAt () t.castSucc
    ∗ (∃ d, owns (c : Thread nD τ) (st0_0 t) fullShare ((proofData V c).before 0 t d))
    ∗ (∃ d, owns (c : Thread nD τ) (st0_1 t) fullShare ((proofData V c).before 1 t d))
    ∗ (∃ d, owns (c : Thread nD τ) (st0_2 t) fullShare ((proofData V c).before 2 t d))
    ∗ (∃ d, owns (c : Thread nD τ) (st0_3 t) fullShare ((proofData V c).before 3 t d)))

/-- and what the body hands back. -/
def returned (c : Dev nD) (t : Fin cfg0.N) : sProp 𝕄 :=
  iprop((proofData V c).Φ t.succ ∗ (proofData V c).owesAt () t.succ
    ∗ owns (c : Thread nD τ) (st0_0 t) fullShare ((proofData V c).after 0 t)
    ∗ owns (c : Thread nD τ) (st0_1 t) fullShare ((proofData V c).after 1 t)
    ∗ owns (c : Thread nD τ) (st0_2 t) fullShare ((proofData V c).after 2 t)
    ∗ owns (c : Thread nD τ) (st0_3 t) fullShare ((proofData V c).after 3 t))

/-- The body at any point: its inputs' buffers hold their blocks, so the triple applies; the rest passes through. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_rows, before_weight, before_bias]
  rw [show (proofData V c).Φ t.succ = (proofData V c).Φ t.castSucc from rfl,
    show (proofData V c).owesAt () t.succ = (proofData V c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W0, bigSep_W0]
  exact body_at V c t

end Cert.KernelIdeal.ProjIn

end
-- ==== Proof.KI.Heads.lean ====
/-
  The attention proper as one pipelined region over the [4, 2048, 3072] array of queries, keys and values laid side by
  side along the last axis. The grid is batch entry x head pair x query tile (4 x 8 x 4 points); a point takes the
  [512, 128] tile of its pair's queries, and the pair's keys and values over all 2048 positions ([2048, 128] each, read
  from the second and third thousand-odd columns of the SAME array), and writes the [512, 128] tile of contexts. Three
  input windows thus read one array. This module holds the region's half of the run at any float instance: the blocks
  the windows stage, what the body leaves in the output tile, the body's triple and the pipeline's proof data, whose
  three readers hold the shared array at three shares that make up the whole.
-/
import proofs.«146471_j31877247271608_2_alg».proof.Proof.Gen.KernelIdeal.Launch
import proofs.«146471_j31877247271608_2_alg».proof.Proof.Gen.KernelIdeal.Skeleton
import proofs.«146471_j31877247271608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The three readers' shares of the one array: a half, and the two halves of the other half. -/
def shareQ : PosShare TreeShare := fullShare.left
def shareK : PosShare TreeShare := fullShare.right.left
def shareV : PosShare TreeShare := fullShare.right.right

/-- The block of window `w` at grid point `t`, read off the window's array as the region finds it. -/
def tileOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetches it or the block
    index has not moved since the fetch: the query tile, -/
theorem held_q {c : Dev nD} (dat : Dat τ (Elt F) Unit ℕ (UR sig nD τ) ℕ cfg1 c) (hA : dat.A 0 = V c (Pipeline.arrRef spec1 0))
    (hafter : ∀ t, dat.after 0 t = tileOf V c 0 t) (t : Fin cfg1.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the keys, -/
theorem held_k {c : Dev nD} (dat : Dat τ (Elt F) Unit ℕ (UR sig nD τ) ℕ cfg1 c) (hA : dat.A 1 = V c (Pipeline.arrRef spec1 1))
    (hafter : ∀ t, dat.after 1 t = tileOf V c 1 t) (t : Fin cfg1.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the values. -/
theorem held_v {c : Dev nD} (dat : Dat τ (Elt F) Unit ℕ (UR sig nD τ) ℕ cfg1 c) (hA : dat.A 2 = V c (Pipeline.arrRef spec1 2))
    (hafter : ∀ t, dat.after 2 t = tileOf V c 2 t) (t : Fin cfg1.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectQ : Rect S1x512x128 := Rect.unit (s := S1x512x128) ![0, 0, 0] S1x512x128.size inb_S1x512x128_S1x512x128_0_0_0
abbrev rectKV : Rect S1x2048x128 := Rect.unit (s := S1x2048x128) ![0, 0, 0] S1x2048x128.size inb_S1x2048x128_S1x2048x128_0_0_0

/-- The context tile of a head pair from its query tile and all its keys and values: the second head's value slice,
    shifted exponentials and their row sums go with the first head's finished context into the last payload. -/
def pairContext (q : Vec F S1x512x128 .bf16) (k v : Vec F S1x2048x128 .bf16) : FVec F S1x512x128 .bf16 :=
  k1_pay1 (k1_pay5 q k v) (k1_pay6 v) (k1_pay7 q k) (k1_pay8 q k)

/-- What the body leaves in the output tile: its one store, of the pair's contexts, over the whole tile. -/
def stored (q : Vec F S1x512x128 .bf16) (k v : Vec F S1x2048x128 .bf16) : Vec F S1x512x128 .bf16 :=
  View.canon [⟨rectQ, pairContext (View.ld q rectQ) (View.ld k rectKV) (View.ld v rectKV)⟩]

/-- The one store covers the tile. -/
theorem stored_covers (p : Vec F S1x512x128 .bf16) (y : S1x512x128.Idx) :
    ∃ pc ∈ ([⟨rectQ, p⟩] : List (View.Piece (Elt F) S1x512x128 .bf16)), y ∈ pc.1.set :=
  View.cover_of_tiled [⟨rectQ, p⟩] S1x512x128.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid1.Coords) (a0 : Memref sig .tc .vmem S1x512x128 .bf16) (h0 : a0.IsWhole) (a1 : Memref sig .tc .vmem S1x2048x128 .bf16) (h1 : a1.IsWhole)
    (a2 : Memref sig .tc .vmem S1x2048x128 .bf16) (h2 : a2.IsWhole) (a3 : Memref sig .tc .vmem S1x512x128 .bf16) (h3 : a3.IsWhole)
    (q : Vec F S1x512x128 .bf16) (k v : Vec F S1x2048x128 .bf16) (K : PUnit → sProp 𝕄) :
    iprop(owns (c : Thread nD τ) a0 fullShare q ∗ owns (c : Thread nD τ) a1 fullShare k ∗ owns (c : Thread nD τ) a2 fullShare v ∗ (∃ d, owns (c : Thread nD τ) a3 fullShare d)
        ∗ (iprop(owns (c : Thread nD τ) a0 fullShare q ∗ owns (c : Thread nD τ) a1 fullShare k ∗ owns (c : Thread nD τ) a2 fullShare v
            ∗ owns (c : Thread nD τ) a3 fullShare (stored q k v)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the three readers of the shared array
    at their three shares; the body uses nothing besides. -/
def proofData (c : Dev nD) : Dat τ (Elt F) Unit ℕ (UR sig nD τ) ℕ cfg1 c where
  A w := V c (Pipeline.arrRef spec1 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem entry_eq (c : Dev nD) (w : Fin cfg1.W) : (proofData V c).A w = V c (Pipeline.arrRef spec1 w) := by
  dsimp only [proofData]
theorem after_q (c : Dev nD) (t : Fin cfg1.N) : (proofData V c).after 0 t = tileOf V c 0 t := by dsimp only [proofData]
theorem after_k (c : Dev nD) (t : Fin cfg1.N) : (proofData V c).after 1 t = tileOf V c 1 t := by dsimp only [proofData]
theorem after_v (c : Dev nD) (t : Fin cfg1.N) : (proofData V c).after 2 t = tileOf V c 2 t := by dsimp only [proofData]
theorem after_out (c : Dev nD) (t : Fin cfg1.N) :
    (proofData V c).after 3 t = stored (tileOf V c 0 t) (tileOf V c 1 t) (tileOf V c 2 t) := by dsimp only [proofData]

theorem before_q (c : Dev nD) (t : Fin cfg1.N) (d) : (proofData V c).before 0 t d = tileOf V c 0 t :=
  held_q V (proofData V c) (entry_eq V c 0) (after_q V c) t d
theorem before_k (c : Dev nD) (t : Fin cfg1.N) (d) : (proofData V c).before 1 t d = tileOf V c 1 t :=
  held_k V (proofData V c) (entry_eq V c 1) (after_k V c) t d
theorem before_v (c : Dev nD) (t : Fin cfg1.N) (d) : (proofData V c).before 2 t d = tileOf V c 2 t :=
  held_v V (proofData V c) (entry_eq V c 2) (after_v V c) t d

/-- What the pipeline hands the body at point `t`, the windows one by one, -/
def handed (c : Dev nD) (t : Fin cfg1.N) : sProp 𝕄 :=
  iprop((proofData V c).Φ t.castSucc ∗ (proofData V c).owesAt () t.castSucc
    ∗ (∃ d, owns (c : Thread nD τ) (st1_0 t) fullShare ((proofData V c).before 0 t d))
    ∗ (∃ d, owns (c : Thread nD τ) (st1_1 t) fullShare ((proofData V c).before 1 t d))
    ∗ (∃ d, owns (c : Thread nD τ) (st1_2 t) fullShare ((proofData V c).before 2 t d))
    ∗ (∃ d, owns (c : Thread nD τ) (st1_3 t) fullShare ((proofData V c).before 3 t d)))

/-- and what the body hands back. -/
def returned (c : Dev nD) (t : Fin cfg1.N) : sProp 𝕄 :=
  iprop((proofData V c).Φ t.succ ∗ (proofData V c).owesAt () t.succ
    ∗ owns (c : Thread nD τ) (st1_0 t) fullShare ((proofData V c).after 0 t)
    ∗ owns (c : Thread nD τ) (st1_1 t) fullShare ((proofData V c).after 1 t)
    ∗ owns (c : Thread nD τ) (st1_2 t) fullShare ((proofData V c).after 2 t)
    ∗ owns (c : Thread nD τ) (st1_3 t) fullShare ((proofData V c).after 3 t))

/-- The body at any point: its inputs' buffers hold their blocks, so the triple applies; the rest passes through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before_q, before_k, before_v]
  rw [show (proofData V c).Φ t.succ = (proofData V c).Φ t.castSucc from rfl,
    show (proofData V c).owesAt () t.succ = (proofData V c).owesAt () t.castSucc from rfl,
    after_q, after_k, after_v, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W1, bigSep_W1]
  exact body_at V c t

end Cert.KernelIdeal.Heads

end
-- ==== Proof.KI.HeadsShare.lean ====
/-
  The attention region's three input windows read ONE array. Its readers hold that array at three shares — a half, and the
  two halves of the other half — that together are the whole: this module trades the array held whole for the three
  readers' holdings at the region's entry, and back at its exit, beside the output array held whole throughout.
-/
import proofs.«146471_j31877247271608_2_alg».proof.Proof.KI.Heads

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the region's windows are two: the packed queries, keys and values, and the contexts. -/
theorem arrays_are : Finset.univ.image (Pipeline.arrRef spec1) = ({main_v10, main_v11} : Finset (Ref sig .tc)) := by decide

/-- The readers' three holdings of the packed array and the contexts' array held whole, at contents the readers agree on,
    are the two arrays held whole, and conversely. -/
theorem arrays_iff (c : Dev nD) (G : (w : Fin cfg1.W) → Buf (Elt F) ((cfg1.win w).arr.view.loc (c : Thread nD τ)))
    (packed : Buf (Elt F) ((c : Thread nD τ).loc main_v10)) (ctx : Buf (Elt F) ((c : Thread nD τ).loc main_v11))
    (h0 : G 0 = packed) (h1 : G 1 = packed) (h2 : G 2 = packed) (h3 : G 3 = ctx) :
    ((proofData V c).arrays G : sProp 𝕄)
      ⊣⊢ iprop((((c : Thread nD τ).loc main_v10) ↦{fullShare} packed) ∗ (((c : Thread nD τ).loc main_v11) ↦{fullShare} ctx)) := by
  have s0 : (cfg1.win 0).arr.view.set = Finset.univ := (arr_whole1 0).set_eq_univ
  have s1 : (cfg1.win 1).arr.view.set = Finset.univ := (arr_whole1 1).set_eq_univ
  have s2 : (cfg1.win 2).arr.view.set = Finset.univ := (arr_whole1 2).set_eq_univ
  have s3 : (cfg1.win 3).arr.view.set = Finset.univ := (arr_whole1 3).set_eq_univ
  unfold Pipeline.Dat.arrays
  rw [bigSep_W1, h0, h1, h2, h3]
  simp only [s0, s1, s2, s3]
  have hl := pointsTo_share (Ix := Unit) (Val := Elt F) (Name := ℕ) (U := UR sig nD τ) (Lvl := ℕ)
    (ℓ := (c : Thread nD τ).loc main_v10) (I := Finset.univ) (f := packed) (PosShare.mem_left_op_right fullShare)
  have hr := pointsTo_share (Ix := Unit) (Val := Elt F) (Name := ℕ) (U := UR sig nD τ) (Lvl := ℕ)
    (ℓ := (c : Thread nD τ).loc main_v10) (I := Finset.univ) (f := packed) (PosShare.mem_left_op_right fullShare.right)
  constructor
  · show iprop((((c : Thread nD τ).loc main_v10) ↦{shareQ} packed) ∗ (((c : Thread nD τ).loc main_v10) ↦{shareK} packed)
        ∗ (((c : Thread nD τ).loc main_v10) ↦{shareV} packed) ∗ (((c : Thread nD τ).loc main_v11) ↦{fullShare} ctx)) ⊢ _
    iintro ⟨Hq, Hk, Hv, Hc⟩
    isplitl [Hq Hk Hv]
    · iapply hl.2
      isplitl [Hq]; · iexact Hq
      iapply hr.2
      isplitl [Hk]; · iexact Hk
      iexact Hv
    iexact Hc
  · show _ ⊢ iprop((((c : Thread nD τ).loc main_v10) ↦{shareQ} packed) ∗ (((c : Thread nD τ).loc main_v10) ↦{shareK} packed)
        ∗ (((c : Thread nD τ).loc main_v10) ↦{shareV} packed) ∗ (((c : Thread nD τ).loc main_v11) ↦{fullShare} ctx))
    iintro ⟨Hp, Hc⟩
    ihave H := hl.1 $$ Hp
    icases H with ⟨Hq, Hr⟩
    ihave H' := hr.1 $$ Hr
    icases H' with ⟨Hk, Hv⟩
    isplitl [Hq]; · iexact Hq
    isplitl [Hk]; · iexact Hk
    isplitl [Hv]; · iexact Hv
    iexact Hc

/-- ENTRY: a core's unscoped buffers at contents `W` give the region's arrays at the proof data's entry contents, and
    the rest. -/
theorem arrays_of_bufs (c : Dev nD) :
    (unscopedBufs c (V c) : sProp 𝕄) ⊢ iprop((proofData V c).arrays ((proofData V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs
  rw [show Finset.univ.image (Pipeline.arrRef (cfgs 1).spec) = ({main_v10, main_v11} : Finset (Ref sig .tc)) from arrays_are,
      bigSep_insert (by decide), bigSep_singleton]
  exact (arrays_iff V c _ (V c main_v10) (V c main_v11) rfl rfl rfl rfl).2

/-- EXIT: the region's arrays at contents `G` and the rest at `W` are the core's unscoped buffers at any contents `W'`
    that have the arrays at `G` and agree with `W` off them. -/
theorem bufs_of_arrays (c : Dev nD) (W' : (b : Ref sig .tc) → Buf (Elt F) ((c : Thread nD τ).loc b))
    (G : (w : Fin cfg1.W) → Buf (Elt F) ((cfg1.win w).arr.view.loc (c : Thread nD τ)))
    (h0 : G 0 = W' main_v10) (h1 : G 1 = W' main_v10) (h2 : G 2 = W' main_v10) (h3 : G 3 = W' main_v11)
    (hrest : ∀ b, b ∉ Finset.univ.image (Pipeline.arrRef spec1) → W' b = V c b) :
    iprop((proofData V c).arrays G ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono ?_ (Entails.of_eq ?_)
  · unfold Pipeline.arrBufs
    rw [show Finset.univ.image (Pipeline.arrRef (cfgs 1).spec) = ({main_v10, main_v11} : Finset (Ref sig .tc)) from arrays_are,
      bigSep_insert (by decide), bigSep_singleton]
    exact (arrays_iff V c G (W' main_v10) (W' main_v11) h0 h1 h2 h3).1
  · unfold Pipeline.unscopedRest
    exact bigSep_congr fun b hb => by rw [hrest b (Finset.mem_sdiff.mp hb).2]

end Cert.KernelIdeal.Heads

end
-- ==== Proof.KI.ProjOut.lean ====
/-
  The output projection as one pipelined region: 8 grid points, point t taking rows 1024 t .. 1024 t + 1023 of the
  [8192, 1024] merged contexts, the whole [1024, 1024] weight matrix and the [1, 1024] bias row, and writing the same
  rows of the [8192, 1024] result. This module holds the region's half of the run at any float instance: the blocks
  the windows stage, what the body leaves in the output tile, the body's triple and the pipeline's proof data.
-/
import proofs.«146471_j31877247271608_2_alg».proof.Proof.Gen.KernelIdeal.Launch
import proofs.«146471_j31877247271608_2_alg».proof.Proof.Gen.KernelIdeal.Skeleton
import proofs.«146471_j31877247271608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ProjOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of window `w` at grid point `t`, read off the window's array as the region finds it. -/
def tileOf (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetches it or the block
    index has not moved since the fetch: the rows tile, -/
theorem held_rows {c : Dev nD} (dat : Dat τ (Elt F) Unit ℕ (UR sig nD τ) ℕ cfg2 c) (hA : dat.A 0 = V c (Pipeline.arrRef spec2 0))
    (hafter : ∀ t, dat.after 0 t = tileOf V c 0 t) (t : Fin cfg2.N) (d) : dat.before 0 t d = tileOf V c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- the weight matrix, -/
theorem held_weight {c : Dev nD} (dat : Dat τ (Elt F) Unit ℕ (UR sig nD τ) ℕ cfg2 c) (hA : dat.A 1 = V c (Pipeline.arrRef spec2 1))
    (hafter : ∀ t, dat.after 1 t = tileOf V c 1 t) (t : Fin cfg2.N) (d) : dat.before 1 t d = tileOf V c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- and the bias row. -/
theorem held_bias {c : Dev nD} (dat : Dat τ (Elt F) Unit ℕ (UR sig nD τ) ℕ cfg2 c) (hA : dat.A 2 = V c (Pipeline.arrRef spec2 2))
    (hafter : ∀ t, dat.after 2 t = tileOf V c 2 t) (t : Fin cfg2.N) (d) : dat.before 2 t d = tileOf V c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-- The whole-block rectangles the body loads and stores through. -/
abbrev rectX : Rect S1024x1024 := Rect.unit (s := S1024x1024) ![0, 0] S1024x1024.size inb_S1024x1024_S1024x1024_0_0
abbrev rectW : Rect S1024x1024 := Rect.unit (s := S1024x1024) ![0, 0] S1024x1024.size inb_S1024x1024_S1024x1024_0_0
abbrev rectB : Rect S1x1024 := Rect.unit (s := S1x1024) ![0, 0] S1x1024.size inb_S1x1024_S1x1024_0_0
abbrev rectO : Rect S1024x1024 := Rect.unit (s := S1024x1024) ![0, 0] S1024x1024.size inb_S1024x1024_S1024x1024_0_0

/-- What the body leaves in the output tile: its one store, of the product of the rows tile with the weight matrix plus
    the bias row, over the whole tile. -/
def stored (x : Vec F S1024x1024 .bf16) (w : Vec F S1024x1024 .bf16) (bias : Vec F S1x1024 .f32) : Vec F S1024x1024 .f32 :=
  View.canon [⟨rectO, k2_pay1 (View.ld x rectX) (View.ld w rectW) (View.ld bias rectB)⟩]

/-- The one store covers the tile. -/
theorem stored_covers (p : Vec F S1024x1024 .f32) (y : S1024x1024.Idx) :
    ∃ pc ∈ ([⟨rectO, p⟩] : List (View.Piece (Elt F) S1024x1024 .f32)), y ∈ pc.1.set :=
  View.cover_of_tiled [⟨rectO, p⟩] S1024x1024.size (by rfl) y

set_option maxHeartbeats 1000000 in
/-- The body on whole staging buffers: from the three inputs at known contents and the output at any contents it runs,
    faulting nowhere, to the inputs unchanged and the output at `stored` of them. -/
theorem body_triple (c : Dev nD) (E : Set ℕ) (i : grid2.Coords) (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1024 .f32) (h3 : a3.IsWhole)
    (x : Vec F S1024x1024 .bf16) (w : Vec F S1024x1024 .bf16) (bias : Vec F S1x1024 .f32) (K : PUnit → sProp 𝕄) :
    iprop(owns (c : Thread nD τ) a0 fullShare x ∗ owns (c : Thread nD τ) a1 fullShare w ∗ owns (c : Thread nD τ) a2 fullShare bias ∗ (∃ d, owns (c : Thread nD τ) a3 fullShare d)
        ∗ (iprop(owns (c : Thread nD τ) a0 fullShare x ∗ owns (c : Thread nD τ) a1 fullShare w ∗ owns (c : Thread nD τ) a2 fullShare bias
            ∗ owns (c : Thread nD τ) a3 fullShare (stored x w bias)) -∗ K ⟨⟩))
      ⊢ wp frame (wpE (defs₀ (F := F)) Variants.none c none) E (cc2__linear_kernel i a0 h0 a1 h1 a2 h2 a3 h3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the arrays as the region finds them; after the body at a point each input's
    buffer still at its block and the output's at `stored` of the three blocks; the body uses nothing besides. -/
def proofData (c : Dev nD) : Dat τ (Elt F) Unit ℕ (UR sig nD τ) ℕ cfg2 c where
  A w := V c (Pipeline.arrRef spec2 w)
  after w t := match w with
    | ⟨0, _⟩ => tileOf V c 0 t
    | ⟨1, _⟩ => tileOf V c 1 t
    | ⟨2, _⟩ => tileOf V c 2 t
    | ⟨3, _⟩ => stored (tileOf V c 0 t) (tileOf V c 1 t) (tileOf V c 2 t)
  Φ _ := Pipeline.ΦA spec2 c
  q _ := fullShare
  owed _ := 0

theorem entry_eq (c : Dev nD) (w : Fin cfg2.W) : (proofData V c).A w = V c (Pipeline.arrRef spec2 w) := by
  dsimp only [proofData]
theorem after_rows (c : Dev nD) (t : Fin cfg2.N) : (proofData V c).after 0 t = tileOf V c 0 t := by dsimp only [proofData]
theorem after_weight (c : Dev nD) (t : Fin cfg2.N) : (proofData V c).after 1 t = tileOf V c 1 t := by dsimp only [proofData]
theorem after_bias (c : Dev nD) (t : Fin cfg2.N) : (proofData V c).after 2 t = tileOf V c 2 t := by dsimp only [proofData]
theorem after_out (c : Dev nD) (t : Fin cfg2.N) :
    (proofData V c).after 3 t = stored (tileOf V c 0 t) (tileOf V c 1 t) (tileOf V c 2 t) := by dsimp only [proofData]

theorem before_rows (c : Dev nD) (t : Fin cfg2.N) (d) : (proofData V c).before 0 t d = tileOf V c 0 t :=
  held_rows V (proofData V c) (entry_eq V c 0) (after_rows V c) t d
theorem before_weight (c : Dev nD) (t : Fin cfg2.N) (d) : (proofData V c).before 1 t d = tileOf V c 1 t :=
  held_weight V (proofData V c) (entry_eq V c 1) (after_weight V c) t d
theorem before_bias (c : Dev nD) (t : Fin cfg2.N) (d) : (proofData V c).before 2 t d = tileOf V c 2 t :=
  held_bias V (proofData V c) (entry_eq V c 2) (after_bias V c) t d

/-- What the pipeline hands the body at point `t`, the windows one by one, -/
def handed (c : Dev nD) (t : Fin cfg2.N) : sProp 𝕄 :=
  iprop((proofData V c).Φ t.castSucc ∗ (proofData V c).owesAt () t.castSucc
    ∗ (∃ d, owns (c : Thread nD τ) (st2_0 t) fullShare ((proofData V c).before 0 t d))
    ∗ (∃ d, owns (c : Thread nD τ) (st2_1 t) fullShare ((proofData V c).before 1 t d))
    ∗ (∃ d, owns (c : Thread nD τ) (st2_2 t) fullShare ((proofData V c).before 2 t d))
    ∗ (∃ d, owns (c : Thread nD τ) (st2_3 t) fullShare ((proofData V c).before 3 t d)))

/-- and what the body hands back. -/
def returned (c : Dev nD) (t : Fin cfg2.N) : sProp 𝕄 :=
  iprop((proofData V c).Φ t.succ ∗ (proofData V c).owesAt () t.succ
    ∗ owns (c : Thread nD τ) (st2_0 t) fullShare ((proofData V c).after 0 t)
    ∗ owns (c : Thread nD τ) (st2_1 t) fullShare ((proofData V c).after 1 t)
    ∗ owns (c : Thread nD τ) (st2_2 t) fullShare ((proofData V c).after 2 t)
    ∗ owns (c : Thread nD τ) (st2_3 t) fullShare ((proofData V c).after 3 t))

/-- The body at any point: its inputs' buffers hold their blocks, so the triple applies; the rest passes through. -/
theorem body_at (c : Dev nD) (t : Fin cfg2.N) :
    handed V c t ⊢ wp frame (wpE (defs₀ (F := F)) Variants.none c none) Set.univ (bodyAt2 t) (fun _ => returned V c t) := by
  unfold handed returned bodyAt2
  simp only [before_rows, before_weight, before_bias]
  rw [show (proofData V c).Φ t.succ = (proofData V c).Φ t.castSucc from rfl,
    show (proofData V c).owesAt () t.succ = (proofData V c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ _ _ _ _ _ _ _ _ _ (tileOf V c 0 t) (tileOf V c 1 t) (tileOf V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (proofData (F := F) V c) (defs₀ (F := F)) Variants.none () Set.univ := fun t => by
  rw [bigSep_W2, bigSep_W2]
  exact body_at V c t

end Cert.KernelIdeal.ProjOut

end
-- ==== Proof.KI.Whole.lean ====
/-
  The whole program as a run. @main is four stretches of host operations around three pipelined regions:
  weights and biases packed and the input flattened to [8192, 1024]; the fused projection; a reshape to
  [4, 2048, 3072]; the attention proper; a reshape to [8192, 1024]; the output projection; a reshape to
  [4, 2048, 1024]. The contents of every unscoped buffer are followed from the launch through the seven items — a host
  stretch applies its operations, a region overwrites its one result array with what its write-backs leave — and
  every weakly fair execution is shown to terminate, faulting nowhere, with the memory at the last of these contents.
  No item writes an argument, so each argument ends as launched.
-/
import proofs.«146471_j31877247271608_2_alg».proof.Proof.KI.ProjIn
import proofs.«146471_j31877247271608_2_alg».proof.Proof.KI.HeadsShare
import proofs.«146471_j31877247271608_2_alg».proof.Proof.KI.ProjOut
import proofs.«146471_j31877247271608_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each item -/

/-- At launch. -/
abbrev at0 (c : Dev nD) : Valuation τ sig (Elt F) := fun b => m (c, b)
/-- After the first host stretch: the packed weights and biases, the flattened input. -/
abbrev at1 (c : Dev nD) : Valuation τ sig (Elt F) := StableHlo.after hostOps0 (at0 m c)
abbrev in1 (c : Dev nD) (b : Ref sig .tc) : Buf (Elt F) ((c : Thread nD τ).loc b) := at1 m c b
/-- After the fused projection: its result array at what the write-backs leave. -/
def at2 (c : Dev nD) : Valuation τ sig (Elt F) :=
  Function.update (at1 m c) main_v9 ((ProjIn.proofData (in1 m) c).arrAt 3 cfg0.N)
abbrev in2 (c : Dev nD) (b : Ref sig .tc) : Buf (Elt F) ((c : Thread nD τ).loc b) := at2 m c b
/-- After the reshape to [4, 2048, 3072]. -/
abbrev at3 (c : Dev nD) : Valuation τ sig (Elt F) := StableHlo.after hostOps1 (at2 m c)
abbrev in3 (c : Dev nD) (b : Ref sig .tc) : Buf (Elt F) ((c : Thread nD τ).loc b) := at3 m c b
/-- After the attention proper. -/
def at4 (c : Dev nD) : Valuation τ sig (Elt F) :=
  Function.update (at3 m c) main_v11 ((Heads.proofData (in3 m) c).arrAt 3 cfg1.N)
abbrev in4 (c : Dev nD) (b : Ref sig .tc) : Buf (Elt F) ((c : Thread nD τ).loc b) := at4 m c b
/-- After the reshape to [8192, 1024]. -/
abbrev at5 (c : Dev nD) : Valuation τ sig (Elt F) := StableHlo.after hostOps2 (at4 m c)
abbrev in5 (c : Dev nD) (b : Ref sig .tc) : Buf (Elt F) ((c : Thread nD τ).loc b) := at5 m c b
/-- After the output projection. -/
def at6 (c : Dev nD) : Valuation τ sig (Elt F) :=
  Function.update (at5 m c) main_v13 ((ProjOut.proofData (in5 m) c).arrAt 3 cfg2.N)
abbrev in6 (c : Dev nD) (b : Ref sig .tc) : Buf (Elt F) ((c : Thread nD τ).loc b) := at6 m c b
/-- After the last reshape: the end. -/
abbrev at7 (c : Dev nD) : Valuation τ sig (Elt F) := StableHlo.after hostOps3 (at6 m c)

theorem at2_result (c : Dev nD) : at2 m c main_v9 = (ProjIn.proofData (in1 m) c).arrAt 3 cfg0.N := by
  unfold at2; exact Function.update_self ..
theorem at2_other (c : Dev nD) (r : Ref sig .tc) (h : r ≠ main_v9) : at2 m c r = at1 m c r := by
  unfold at2; exact Function.update_of_ne (StableHlo.devRef_ne_of_ne h) ..
theorem at4_result (c : Dev nD) : at4 m c main_v11 = (Heads.proofData (in3 m) c).arrAt 3 cfg1.N := by
  unfold at4; exact Function.update_self ..
theorem at4_other (c : Dev nD) (r : Ref sig .tc) (h : r ≠ main_v11) : at4 m c r = at3 m c r := by
  unfold at4; exact Function.update_of_ne (StableHlo.devRef_ne_of_ne h) ..
theorem at6_result (c : Dev nD) : at6 m c main_v13 = (ProjOut.proofData (in5 m) c).arrAt 3 cfg2.N := by
  unfold at6; exact Function.update_self ..
theorem at6_other (c : Dev nD) (r : Ref sig .tc) (h : r ≠ main_v13) : at6 m c r = at5 m c r := by
  unfold at6; exact Function.update_of_ne (StableHlo.devRef_ne_of_ne h) ..

/-- A buffer no item writes ends as launched. -/
theorem at7_untouched (c : Dev nD) (r : Ref sig .tc) (h0 : r ∉ hostOps0_W) (h1 : r ∉ hostOps1_W) (h2 : r ∉ hostOps2_W)
    (h3 : r ∉ hostOps3_W) (n9 : r ≠ main_v9) (n11 : r ≠ main_v11) (n13 : r ≠ main_v13) :
    at7 m c r = m ((c : Thread nD τ).loc r) :=
  (StableHlo.after_of_writes_sub hostOps3 _ hostOps3_writes h3).trans <|
    (at6_other m c r n13).trans <| (StableHlo.after_of_writes_sub hostOps2 _ hostOps2_writes h2).trans <|
    (at4_other m c r n11).trans <| (StableHlo.after_of_writes_sub hostOps1 _ hostOps1_writes h1).trans <|
    (at2_other m c r n9).trans <| (StableHlo.after_of_writes_sub hostOps0 _ hostOps0_writes h0).trans rfl

/-! ## The proof data and what rides along -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => ProjIn.proofData (in1 m) c
  | ⟨1, _⟩ => fun c => Heads.proofData (in3 m) c
  | ⟨2, _⟩ => fun c => ProjOut.proofData (in5 m) c
abbrev novar : Variants := Variants.none
/-- No core owes another anything: no level is assigned. -/
abbrev nolev : GSem nD τ sig → Finset Unit := fun _ => ∅
abbrev lev0 : GSem nD τ sig → Unit → ℕ := fun _ _ => 0
/-- Beside the buffers, through every item: the core's generator register at some state, and that it owes nothing. -/
abbrev aside (c : Dev nD) : sProp 𝕄 := iprop((∃ r, prngReg c r) ∗ ∃ W, owes (c : Thread nD τ) (0 : CellTallies nD τ sig Unit) W)

/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ novar nolev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the `owes`. -/
abbrev atEnd (c : Dev nD) : sProp 𝕄 := iprop(StableHlo.held (c : Thread nD τ) (Pipeline.ucRefs τ sig) (at7 m c) ∗ ∃ r, prngReg c r)

/-! ## The regions' arrays at their exits -/

theorem exit0 (c : Dev nD) (w : Fin cfg0.W) : (pdats m 0 c).arrAt w cfg0.N = in2 m c (Pipeline.arrRef spec0 w) :=
  match w with
  | ⟨0, _⟩ => ((ProjIn.proofData (in1 m) c).arrAt_in 0 rfl _).trans ((ProjIn.entry_eq (in1 m) c 0).trans (at2_other m c _ (by decide)).symm)
  | ⟨1, _⟩ => ((ProjIn.proofData (in1 m) c).arrAt_in 1 rfl _).trans ((ProjIn.entry_eq (in1 m) c 1).trans (at2_other m c _ (by decide)).symm)
  | ⟨2, _⟩ => ((ProjIn.proofData (in1 m) c).arrAt_in 2 rfl _).trans ((ProjIn.entry_eq (in1 m) c 2).trans (at2_other m c _ (by decide)).symm)
  | ⟨3, _⟩ => (at2_result m c).symm
theorem rest0 (c : Dev nD) : ∀ b, b ∉ Finset.univ.image (Pipeline.arrRef spec0) → in2 m c b = in1 m c b :=
  fun b hb => at2_other m c b fun e => hb (e ▸ Finset.mem_image.mpr ⟨3, Finset.mem_univ _, rfl⟩)

theorem rest1 (c : Dev nD) : ∀ b, b ∉ Finset.univ.image (Pipeline.arrRef spec1) → in4 m c b = in3 m c b :=
  fun b hb => at4_other m c b fun e => hb (e ▸ Finset.mem_image.mpr ⟨3, Finset.mem_univ _, rfl⟩)

theorem exit2 (c : Dev nD) (w : Fin cfg2.W) : (pdats m 2 c).arrAt w cfg2.N = in6 m c (Pipeline.arrRef spec2 w) :=
  match w with
  | ⟨0, _⟩ => ((ProjOut.proofData (in5 m) c).arrAt_in 0 rfl _).trans ((ProjOut.entry_eq (in5 m) c 0).trans (at6_other m c _ (by decide)).symm)
  | ⟨1, _⟩ => ((ProjOut.proofData (in5 m) c).arrAt_in 1 rfl _).trans ((ProjOut.entry_eq (in5 m) c 1).trans (at6_other m c _ (by decide)).symm)
  | ⟨2, _⟩ => ((ProjOut.proofData (in5 m) c).arrAt_in 2 rfl _).trans ((ProjOut.entry_eq (in5 m) c 2).trans (at6_other m c _ (by decide)).symm)
  | ⟨3, _⟩ => (at6_result m c).symm
theorem rest2 (c : Dev nD) : ∀ b, b ∉ Finset.univ.image (Pipeline.arrRef spec2) → in6 m c b = in5 m c b :=
  fun b hb => at6_other m c b fun e => hb (e ▸ Finset.mem_image.mpr ⟨3, Finset.mem_univ _, rfl⟩)

/-! ## The regions as segments -/

set_option backward.isDefEq.respectTransparency.types false in
/-- The fused projection, entered from `at1` and left at `at2`: its arrays are split out of the unscoped buffers and put
    back at the exit contents; the generator register goes into the body's invariant and comes back; nothing is owed. -/
def regionIn : Pipeline.RegionSeg (pcfgs (F := F)) adm (pdats m) () defs₀ novar nolev lev0 0 where
  win := launch0.win.to₀
  block_pos := launch0.block_pos
  stage_whole := launch0.stage_whole
  K := PEmpty
  osem k := k.elim
  ho := Pipeline.OwnSemFacts.none _
  hbody c := (ProjIn.obligation (in1 m) c).loose
  hwaits := Pipeline.hwaits_of_owed_zero _ _ _ _ nolev lev0 0 fun _ _ => rfl
  pre c := iprop(StableHlo.held (c : Thread nD τ) (Pipeline.ucRefs τ sig) (at1 m c) ∗ aside c)
  post c := iprop(StableHlo.held (c : Thread nD τ) (Pipeline.ucRefs τ sig) (at2 m c) ∗ aside c)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (in2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The attention proper, entered from `at3` and left at `at4`. Its three input windows read one array: the array held
    whole is traded for the readers' three shares at the entry and back at the exit. -/
def regionHeads : Pipeline.RegionSeg (pcfgs (F := F)) adm (pdats m) () defs₀ novar nolev lev0 1 where
  win := winFacts₀1
  block_pos := block_pos1
  stage_whole := stage_whole1
  K := PEmpty
  osem k := k.elim
  ho := Pipeline.OwnSemFacts.none _
  hbody c := (Heads.obligation (in3 m) c).loose
  hwaits := Pipeline.hwaits_of_owed_zero _ _ _ _ nolev lev0 1 fun _ _ => rfl
  pre c := iprop(StableHlo.held (c : Thread nD τ) (Pipeline.ucRefs τ sig) (at3 m c) ∗ aside c)
  post c := iprop(StableHlo.held (c : Thread nD τ) (Pipeline.ucRefs τ sig) (at4 m c) ∗ aside c)
  X c := iprop(∃ r, prngReg c r)
  Y c := iprop(∃ r, prngReg c r)
  Z c := Pipeline.unscopedRest (Ix := Unit) (Name := ℕ) (U := UR sig nD τ) (Lvl := ℕ) spec1 c (in3 m c)
  hentry c := by
    rw [Pipeline.ownSems0_none]
    have hsplit := Heads.arrays_of_bufs (in3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (in3 m c))
        ⊢ (unscopedBufs c (in4 m c) : sProp 𝕄) := Heads.bufs_of_arrays (in3 m) c (in4 m c) ((pdats m 1 c).arrAt · cfg1.N)
      (((Heads.proofData (in3 m) c).arrAt_in 0 rfl _).trans ((Heads.entry_eq (in3 m) c 0).trans (at4_other m c _ (by decide)).symm))
      (((Heads.proofData (in3 m) c).arrAt_in 1 rfl _).trans ((Heads.entry_eq (in3 m) c 1).trans (at4_other m c _ (by decide)).symm))
      (((Heads.proofData (in3 m) c).arrAt_in 2 rfl _).trans ((Heads.entry_eq (in3 m) c 2).trans (at4_other m c _ (by decide)).symm))
      (at4_result m c).symm (rest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection, entered from `at5` and left at `at6`. -/
def regionOut : Pipeline.RegionSeg (pcfgs (F := F)) adm (pdats m) () defs₀ novar nolev lev0 2 where
  win := launch2.win.to₀
  block_pos := launch2.block_pos
  stage_whole := launch2.stage_whole
  K := PEmpty
  osem k := k.elim
  ho := Pipeline.OwnSemFacts.none _
  hbody c := (ProjOut.obligation (in5 m) c).loose
  hwaits := Pipeline.hwaits_of_owed_zero _ _ _ _ nolev lev0 2 fun _ _ => rfl
  pre c := iprop(StableHlo.held (c : Thread nD τ) (Pipeline.ucRefs τ sig) (at5 m c) ∗ aside c)
  post c := iprop(StableHlo.held (c : Thread nD τ) (Pipeline.ucRefs τ sig) (at6 m c) ∗ aside c)
  X c := iprop(∃ r, prngReg c r)
  Y c := iprop(∃ r, prngReg c r)
  Z c := Pipeline.unscopedRest (Ix := Unit) (Name := ℕ) (U := UR sig nD τ) (Lvl := ℕ) spec2 c (in5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in5 m c) (in6 m c) ((pdats m 2 c).arrAt · cfg2.N) (exit2 m c) (rest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's seven items in order. -/
abbrev items : List (Pipeline.Seg (pcfgs (F := F)) adm (pdats m) () defs₀ novar nolev lev0) :=
  [ .host (stretch hostOps0 hostOps0_sub hostOps0_fresh (at0 m)),
    .region (regionIn m),
    .host (stretch hostOps1 hostOps1_sub hostOps1_fresh (at2 m)),
    .region (regionHeads m),
    .host (stretch hostOps2 hostOps2_sub hostOps2_fresh (at4 m)),
    .region (regionOut m),
    .host (stretch hostOps3 hostOps3_sub hostOps3_fresh (at6 m)) ]

theorem main_is (c : Dev nD) : main (F := F) c = Pipeline.Seg.run (items m) := (main_chain c).trans (by chain_rfl)

set_option backward.isDefEq.respectTransparency.types false in
/-- THE RUN, at any float instance: from any memory with zero counters every weakly fair execution of @main terminates,
    faulting nowhere, and every unscoped buffer ends at the last of the contents followed above. -/
theorem run : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) adm (pdats m) () cellOf_inj emb₁ defs₀ novar nolev lev0 m ρ main (items m)
    (fun c Q => by rw [main_is m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ aside c)) (Tₙ := atEnd m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (at7 m c) ∗ aside c) : sProp 𝕄) ⊢ _
      iintro ⟨Hh, Hp, Ho⟩
      isplitl [Hh Hp]
      · isplitl [Hh]; · iexact Hh
        iexact Hp
      iexact Ho⟩)
    (hinit := by
      refine Pipeline.initEach nolev lev0 fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

/-- Read at an unscoped buffer of the core. -/
theorem run_at (r : PUnit × MemSt nD τ sig (Elt F)) (h : ∀ c : Dev nD, ∀ b ∈ Pipeline.ucRefs τ sig, r.2.mem (((c : Thread nD τ)).1, b) = at7 m c b)
    (c : Dev nD) (b : Ref sig .tc) (hb : ¬ (Proc.devRef .tc b : DevRef τ sig).isScoped) :
    r.2.mem ((c.tc : Thread nD τ).loc b) = at7 m c b := h c _ (mem_uc b hb)

end Cert.KernelIdeal.Whole

end
-- ==== Proof.KI.Frame.lean ====
/-
  The frame: no item of the run writes an argument — the host stretches write their own results, each region its one
  result array — so every argument buffer ends holding what it held at launch.
-/
import proofs.«146471_j31877247271608_2_alg».proof.Proof.KI.Whole

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An unscoped buffer no item writes reads, after the run, what it held at launch. -/
theorem kept (r : PUnit × MemSt nD τ sig (Elt F))
    (h : ∀ c : Dev nD, ∀ b ∈ Pipeline.ucRefs τ sig, r.2.mem (((c : Thread nD τ)).1, b) = at7 m c b) (c : Dev nD) (b : Ref sig .tc)
    (hb : ¬ (Proc.devRef .tc b : DevRef τ sig).isScoped) (h0 : b ∉ hostOps0_W) (h1 : b ∉ hostOps1_W) (h2 : b ∉ hostOps2_W)
    (h3 : b ∉ hostOps3_W) (n9 : b ≠ main_v9) (n11 : b ≠ main_v11) (n13 : b ≠ main_v13) :
    r.2.mem ((c.tc : Thread nD τ).loc b) = m ((c.tc : Thread nD τ).loc b) :=
  (run_at m r h c b hb).trans (at7_untouched m c b h0 h1 h2 h3 n9 n11 n13)

/-- The nine arguments end as launched. -/
theorem args_kept (r : PUnit × MemSt nD τ sig (Elt F))
    (h : ∀ c : Dev nD, ∀ b ∈ Pipeline.ucRefs τ sig, r.2.mem (((c : Thread nD τ)).1, b) = at7 m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨kept m r h c main_arg0 (by decide) (by decide) (by decide) (by decide) (by decide) (by decide) (by decide) (by decide),
    kept m r h c main_arg1 (by decide) (by decide) (by decide) (by decide) (by decide) (by decide) (by decide) (by decide),
    kept m r h c main_arg2 (by decide) (by decide) (by decide) (by decide) (by decide) (by decide) (by decide) (by decide),
    kept m r h c main_arg3 (by decide) (by decide) (by decide) (by decide) (by decide) (by decide) (by decide) (by decide),
    kept m r h c main_arg4 (by decide) (by decide) (by decide) (by decide) (by decide) (by decide) (by decide) (by decide),
    kept m r h c main_arg5 (by decide) (by decide) (by decide) (by decide) (by decide) (by decide) (by decide) (by decide),
    kept m r h c main_arg6 (by decide) (by decide) (by decide) (by decide) (by decide) (by decide) (by decide) (by decide),
    kept m r h c main_arg7 (by decide) (by decide) (by decide) (by decide) (by decide) (by decide) (by decide) (by decide),
    kept m r h c main_arg8 (by decide) (by decide) (by decide) (by decide) (by decide) (by decide) (by decide) (by decide)⟩

/-- Every weakly fair execution terminates, faulting nowhere, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run m ρ)

end Cert.KernelIdeal.Whole

end
-- ==== Proof.Spec.lean ====
/-
  Multi-head self-attention on the extended reals, index by index.

  From an input x : [4, 2048, 1024] and four square weight matrices with their biases, three linear maps give
  the queries, keys and values  x W^T + b.  The 1024 features split into 16 heads of 64: feature  64 h + d  is
  coordinate d of head h.  Within one batch entry and one head, position i attends to position j with the weight
      exp (s i j - max_j' s i j') / sum_j' exp (s i j' - max_j'' s i j''),
  where  s i j = (sum_d q_i,d k_j,d) / 8  is the scaled inner product, and the context is the weighted sum of the
  value vectors.  A last linear map is applied to the heads' contexts laid side by side again.
  Every sum is a finite sum over a literal index range and every maximum a fold of max from the least element,
  so nothing here depends on the order in which a program accumulates.
-/
import Idealize.ShloMosaic.PureOps.Ideal
import Idealize.ShloMosaic.Lib.ValueIdx

noncomputable section

namespace Cert.Attention

open Idealize.ShloMosaic Idealize.ShloMosaic.ValueIdx

/-- The input's shape, a weight matrix's, a bias vector's. -/
abbrev A3 : Shape := ⟨3, ![4, 2048, 1024]⟩
abbrev A2 : Shape := ⟨2, ![1024, 1024]⟩
abbrev A1 : Shape := ⟨1, ![1024]⟩

/-- Feature `64 h + d`: coordinate `d` of head `h`. -/
def col (h : Fin 16) (d : Fin 64) : Fin 1024 := ⟨64 * h.val + d.val, by omega⟩

/-- The scale 1/8 and the least element, as the two programs write them (words never evaluated). -/
abbrev eighth : EReal := Ideal.ofBits .f32 0x3E000000#32
abbrev least : EReal := Ideal.ofBits .f32 0xFF800000#32

/-- A linear map applied to every position: `(x W^T + b) (b, s, e) = sum_d x (b, s, d) W (e, d) + bias e`. -/
def proj (x : A3.Idx → EReal) (W : A2.Idx → EReal) (bias : A1.Idx → EReal) (b : Fin 4) (s : Fin 2048) (e : Fin 1024) : EReal :=
  (∑ d : Fin 1024, x (ix3 b s d) * W (ix2 e d)) + bias (ix1 e)

/-- The scaled inner product of query `i` and key `j` of one batch entry within head `h`. -/
def score (q k : Fin 4 → Fin 2048 → Fin 1024 → EReal) (b : Fin 4) (h : Fin 16) (i j : Fin 2048) : EReal :=
  (∑ d : Fin 64, q b i (col h d) * k b j (col h d)) * eighth

/-- The largest entry of a row, folded from the least element. -/
def rowMax (s : Fin 2048 → EReal) : EReal := (Finset.univ : Finset (Fin 2048)).fold max least s

/-- A row's entries shifted by its maximum and exponentiated. -/
def shifted (s : Fin 2048 → EReal) (j : Fin 2048) : EReal := Ideal.exp (s j - rowMax s)

/-- The attention weight of key `j` in a row of scores. -/
def weight (s : Fin 2048 → EReal) (j : Fin 2048) : EReal := Ideal.div (shifted s j) (∑ j' : Fin 2048, shifted s j')

/-- The context of position `i` in head `h`, coordinate `d`: the values weighted. -/
def context (q k v : Fin 4 → Fin 2048 → Fin 1024 → EReal) (b : Fin 4) (i : Fin 2048) (h : Fin 16) (d : Fin 64) : EReal :=
  ∑ j : Fin 2048, weight (score q k b h i) j * v b j (col h d)

/-- The head and the coordinate of a feature. -/
def headOf (e : Fin 1024) : Fin 16 := ⟨e.val / 64, by omega⟩
def laneOf (e : Fin 1024) : Fin 64 := ⟨e.val % 64, by omega⟩

theorem col_head_lane (e : Fin 1024) : col (headOf e) (laneOf e) = e := Fin.ext (by simp only [col, headOf, laneOf]; omega)

/-- The heads' contexts side by side: feature `e` of position `i`. -/
def merged (q k v : Fin 4 → Fin 2048 → Fin 1024 → EReal) (b : Fin 4) (i : Fin 2048) (e : Fin 1024) : EReal :=
  context q k v b i (headOf e) (laneOf e)

/-- Multi-head attention of `x` under the four linear maps, at batch entry `b`, position `s`, feature `e`. -/
def attention (x : A3.Idx → EReal) (Wq : A2.Idx → EReal) (bq : A1.Idx → EReal) (Wk : A2.Idx → EReal) (bk : A1.Idx → EReal)
    (Wv : A2.Idx → EReal) (bv : A1.Idx → EReal) (Wo : A2.Idx → EReal) (bo : A1.Idx → EReal) : A3.Idx → EReal := fun i =>
  (∑ d : Fin 1024, merged (proj x Wq bq) (proj x Wk bk) (proj x Wv bv) (i 0) (i 1) d * Wo (ix2 (i 2) d)) + bo (ix1 (i 2))

end Cert.Attention

end
-- ==== Proof.Bodies.lean ====
/-
  The three tile computations of the attention program, read index by index on the extended reals.

  * The projection tiles: a rows-by-matrix product into the zero block plus a bias row repeated down the rows; at
    (r, c) this is  sum_k x(r, k) w(k, c) + bias(0, c).
  * The attention tile: 128 lanes hold two heads of 64 lanes each.  For the head of lane c, row i of the tile is
    sum_j weight(s_i) j * v(j, c)  where  s_i j = (sum_d q(i, lane c d) k(j, lane c d)) / 8  runs over the 64 lanes of that
    head and weight is the exponential of the row shifted by its maximum, divided by the sum of those exponentials.
  Format changes are the identity on the extended reals, so no rounding appears anywhere.
-/
import proofs.«146471_j31877247271608_2_alg».proof.Proof.Gen.KernelIdeal.Skeleton
import proofs.«146471_j31877247271608_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Bodies

open Idealize.ShloMosaic Idealize.ShloMosaic.ValueIdx Cert.KernelIdeal Cert.KernelIdeal.Gen

/-! ## A rows-by-matrix product into the zero block -/

/-- At output index (r, c) and contraction position k the left operand of an M x K by K x N product is read at (r, k) … -/
theorem plain_lhsIdx {M K N : Nat} (r : Fin M) (c : Fin N) (k : Fin K) :
    (DotDims.plain M K N).lhsIdx (ix2 r c) ((contrEquiv1 (DotDims.plain M K N) K rfl rfl).symm k) = ix2 r k := by
  funext a
  refine Fin.ext ?_
  match a with
  | ⟨0, _⟩ => rfl
  | ⟨1, _⟩ => rfl

/-- … and the right operand at (k, c). -/
theorem plain_rhsIdx {M K N : Nat} (r : Fin M) (c : Fin N) (k : Fin K) :
    (DotDims.plain M K N).rhsIdx (ix2 r c) ((contrEquiv1 (DotDims.plain M K N) K rfl rfl).symm k) = ix2 k c := by
  funext a
  refine Fin.ext ?_
  match a with
  | ⟨0, _⟩ => rfl
  | ⟨1, _⟩ => rfl

/-- The product of an M x K block and a K x N block into the zero block, at (r, c): the sum over k of l(r, k) r(k, c). -/
theorem dense_apply {M K N : Nat} {φ₁ φ₂ : FTy} (d : DotDims ⟨2, ![M, K]⟩ ⟨2, ![K, N]⟩ ⟨2, ![M, N]⟩)
    (hd : d = DotDims.plain M K N) (l : FVec Ideal ⟨2, ![M, K]⟩ φ₁) (w : FVec Ideal ⟨2, ![K, N]⟩ φ₂) (r : Fin M) (c : Fin N) :
    matmul d none l w (constant (F := Ideal) ⟨2, ![M, N]⟩ .f32 0x00000000#32) (ix2 r c)
      = ∑ k : Fin K, l (ix2 r k) * w (ix2 k c) := by
  subst hd
  refine (Ideal.matmul_constant_zero_apply (DotDims.plain M K N) none l w (ix2 r c)).trans ?_
  rw [← Equiv.sum_comp (contrEquiv1 (DotDims.plain M K N) K rfl rfl).symm]
  refine Finset.sum_congr rfl fun k _ => ?_
  rw [plain_lhsIdx, plain_rhsIdx]

/-! ## The projection tiles -/

/-- The query/key/value projection tile at (r, c). -/
theorem qkv_tile (x : Vec Ideal S512x1024 .f32) (w : Vec Ideal S1024x3072 .bf16) (bias : Vec Ideal S1x3072 .f32)
    (r : Fin 512) (c : Fin 3072) :
    k0_pay1 x w bias (ix2 r c) = (∑ k : Fin 1024, x (ix2 r k) * w (ix2 k c)) + bias (ix2 0 c) := by
  unfold k0_pay1
  simp only [shapeCast_self]
  show matmul dot_S512x1024_S1024x3072_S512x3072_1_0_0_1_n_n none _ w (constant (F := Ideal) S512x3072 .f32 0x00000000#32) (ix2 r c)
      + broadcastTo S512x3072 bias broadcasts_S1x3072_S512x3072 (ix2 r c) = _
  rw [dense_apply dot_S512x1024_S1024x3072_S512x3072_1_0_0_1_n_n rfl, broadcastTo_1b_ab_apply]
  rfl

/-- The output projection tile at (r, c). -/
theorem out_tile (x : Vec Ideal S1024x1024 .bf16) (w : Vec Ideal S1024x1024 .bf16) (bias : Vec Ideal S1x1024 .f32)
    (r : Fin 1024) (c : Fin 1024) :
    k2_pay1 x w bias (ix2 r c) = (∑ k : Fin 1024, x (ix2 r k) * w (ix2 k c)) + bias (ix2 0 c) := by
  unfold k2_pay1
  simp only [shapeCast_self]
  show matmul dot_S1024x1024_S1024x1024_S1024x1024_1_0_0_1_n_n none x w (constant (F := Ideal) S1024x1024 .f32 0x00000000#32) (ix2 r c)
      + broadcastTo S1024x1024 bias broadcasts_S1x1024_S1024x1024 (ix2 r c) = _
  rw [dense_apply dot_S1024x1024_S1024x1024_S1024x1024_1_0_0_1_n_n rfl, broadcastTo_1b_ab_apply]

end Cert.Bodies

end
-- ==== Proof.ValueIn.lean ====
/-
  The fused query / key / value projection's result array after its region, as one function of the arrays it reads.

  The region runs 16 grid points; point t takes rows 512 t .. 512 t + 511 of the rows array, the whole weight
  matrix and the whole bias row, and writes back the same rows of the result. Every point's block of the result is
  the same function of the three arrays read through the block, and the 16 blocks tile the result, so after the
  region the result array is that function: at (r, c) the sum over k of rows (r, k) times weights (k, c), plus
  bias (0, c).
-/
import proofs.«146471_j31877247271608_2_alg».proof.Proof.KI.ProjIn
import proofs.«146471_j31877247271608_2_alg».proof.Proof.Bodies
import Idealize.ShloMosaic.Lib.Pipeline.Value

noncomputable section

namespace Cert.ValueIn

open Cert.KernelIdeal Cert.KernelIdeal.Gen Cert.KernelIdeal.ProjIn
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- A linear map with bias on every row: at (r, c) the sum over k of x (r, k) w (k, c), plus bias (0, c). -/
def dense (x : S8192x1024.Idx → EReal) (w : S1024x3072.Idx → EReal) (bias : S1x3072.Idx → EReal) : S8192x3072.Idx → EReal :=
  fun i => (∑ k : Fin 1024, x (ix2 (i 0) k) * w (ix2 k (i 1))) + bias (ix2 0 (i 1))

theorem zero_offsets : (![0, 0] : Fin 2 → Nat) = fun _ => 0 := funext fun a => by fin_cases a <;> rfl

/-- The printed index maps, decided over the grid: the rows window moves with the result window along the rows and
    stays at column block 0, as the result window does; the weight and bias windows stay at block (0, 0). -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every row block of the result is some point's. -/
theorem index_onto : ∀ q : Fin 16, ∃ t : Fin cfg0.N, win0_3.index t = ![q.val, 0] :=
  (by decide +kernel : ∀ q : Fin 16, ∃ t : Fin grid0.N, win0_3.index t = ![q.val, 0])

/-- What point t writes back is block t of the linear map of the three arrays as the region finds them. -/
theorem flushed_eq (c : Dev nD) (t : Fin cfg0.N) :
    (proofData V c).flushed 3 t
      = ((cfg0.win 3).blk t).view.read (Elt Ideal) (dense (V c main_v8) (V c main_v2) (V c main_v4)) := by
  show (cfg0.win 3).cut (grid0.coords t) ((proofData V c).after 3 t) = _
  rw [after_out]
  unfold stored
  rw [View.canon_unit_zero zero_offsets]
  simp only [View.ld_unit_zero (S := S512x1024) zero_offsets, View.ld_unit_zero (S := S1024x3072) zero_offsets,
    View.ld_unit_zero (S := S1x3072) zero_offsets]
  obtain ⟨e0, e1, e2, e3, e4, e5, e6, e7⟩ := index_facts t
  funext j
  obtain ⟨r, cc, rfl⟩ : ∃ (r : Fin 512) (cc : Fin 3072), j = ix2 r cc := ⟨j 0, j 1, eq_ix2 j⟩
  refine (Cert.Bodies.qkv_tile _ _ _ r cc).trans ?_
  have hr := r.isLt
  have hcc := cc.isLt
  -- the row of the arrays that row r of block t is
  have hrow : win0_3.index t (0 : Fin 2) * 512 + r.val < 8192 := by omega
  have hout : ((cfg0.win 3).blk t).view.emb (ix2 r cc) = ix2 (⟨win0_3.index t (0 : Fin 2) * 512 + r.val, hrow⟩ : Fin 8192) cc := by
    funext a
    apply Fin.ext
    match a with
    | ⟨0, _⟩ => show win0_3.index t (0 : Fin 2) * 512 + 1 * r.val = win0_3.index t (0 : Fin 2) * 512 + r.val; omega
    | ⟨1, _⟩ => show win0_3.index t (1 : Fin 2) * 3072 + 1 * cc.val = cc.val; omega
  have hx : ∀ k : Fin 1024, tileOf V c 0 t (ix2 r k)
      = V c main_v8 (ix2 (⟨win0_3.index t (0 : Fin 2) * 512 + r.val, hrow⟩ : Fin 8192) k) := fun k => by
    have hk := k.isLt
    show V c main_v8 (((cfg0.win 0).blk t).view.emb (ix2 r k)) = _
    refine congrArg (V c main_v8) (funext fun a => Fin.ext ?_)
    match a with
    | ⟨0, _⟩ => show win0_0.index t (0 : Fin 2) * 512 + 1 * r.val = win0_3.index t (0 : Fin 2) * 512 + r.val; omega
    | ⟨1, _⟩ => show win0_0.index t (1 : Fin 2) * 1024 + 1 * k.val = k.val; omega
  have hw : ∀ k : Fin 1024, tileOf V c 1 t (ix2 k cc) = V c main_v2 (ix2 k cc) := fun k => by
    have hk := k.isLt
    show V c main_v2 (((cfg0.win 1).blk t).view.emb (ix2 k cc)) = _
    refine congrArg (V c main_v2) (funext fun a => Fin.ext ?_)
    match a with
    | ⟨0, _⟩ => show win0_1.index t (0 : Fin 2) * 1024 + 1 * k.val = k.val; omega
    | ⟨1, _⟩ => show win0_1.index t (1 : Fin 2) * 3072 + 1 * cc.val = cc.val; omega
  have hb : tileOf V c 2 t (ix2 0 cc) = V c main_v4 (ix2 0 cc) := by
    show V c main_v4 (((cfg0.win 2).blk t).view.emb (ix2 0 cc)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 3072 + 1 * cc.val = cc.val; omega
  show _ = dense (V c main_v8) (V c main_v2) (V c main_v4) (((cfg0.win 3).blk t).view.emb (ix2 r cc))
  rw [hout, hb]
  exact congrArg (· + V c main_v4 (ix2 0 cc)) (Finset.sum_congr rfl fun k _ => by rw [hx k, hw k])

/-- An index of the result is in point t's block iff each coordinate is in the block's range on its axis. -/
theorem mem_block (t : Fin cfg0.N) (i : S8192x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v9).slice (win0_3.rect t)).set ↔ _
  rw [View.set_slice_whole, Rect.mem_set_unit]
  exact Iff.rfl

/-- The blocks tile the result: row r is in the block of the point whose row block is r / 512. -/
theorem covered (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The result array after the region is the linear map of the three arrays as the region finds them. -/
theorem final (c : Dev nD) :
    (proofData V c).arrAt 3 cfg0.N = dense (V c main_v8) (V c main_v2) (V c main_v4) :=
  (proofData V c).arrAt_eq_of_cover 3 (dense (V c main_v8) (V c main_v2) (V c main_v4)) (fun t _ => flushed_eq V c t) covered

end Cert.ValueIn

end
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.BodiesAttn.lean ====
/-
  The attention tile of the attention program, read index by index on the extended reals.

  128 lanes hold two heads of 64 lanes each.  For the head of lane c, row i of the tile is
      sum_j weight(s_i) j * v(j, c),
  where  s_i j = (sum_d q(i, lane c d) k(j, lane c d)) / 8  runs over the 64 lanes of that head, and weight is the
  exponential of the row shifted by its maximum, divided by the sum of those exponentials.  The tile is computed head
  by head: 64 lanes of the queries, keys and values are cut out, the scores are a product into the zero block times
  the word of 1/8, the row maxima and row sums are kept as columns and repeated along the rows, and the two heads'
  contexts are laid side by side.  Format changes are the identity on the extended reals.
-/
import proofs.«146471_j31877247271608_2_alg».proof.Proof.Bodies
import proofs.«146471_j31877247271608_2_alg».proof.Proof.LibRowMax
import proofs.«146471_j31877247271608_2_alg».proof.Proof.LibKeepdims

noncomputable section

namespace Cert.Bodies

open Idealize.ShloMosaic Idealize.ShloMosaic.ValueIdx Cert.KernelIdeal Cert.KernelIdeal.Gen

/-! ## The attention tile: the pieces, over arbitrary blocks -/

/-- Lane d of the head that lane c belongs to. -/
def lane (c : Fin 128) (d : Fin 64) : Fin 128 :=
  ⟨64 * (c.val / 64) + d.val, by have := c.isLt; have := d.isLt; omega⟩

/-- The 64 lanes from o of a [1, n, 128] block, as an [n, 64] block. -/
def lanes {α : Type} {n : Nat} (o : Nat) (h : (⟨2, ![n, 128]⟩ : Shape).Slices ![0, o] ⟨2, ![n, 64]⟩)
    (hc : (⟨3, ![1, n, 128]⟩ : Shape).ShapeCasts ⟨2, ![n, 128]⟩) (x : (⟨3, ![1, n, 128]⟩ : Shape).Idx → α) :
    (⟨2, ![n, 64]⟩ : Shape).Idx → α :=
  extractStridedSlice ⟨2, ![n, 64]⟩ ![0, o] (shapeCast ⟨2, ![n, 128]⟩ x hc) h

/-- Entry (i, d) of those lanes is the block's entry (0, i, c) whenever c = o + d. -/
theorem lanes_apply {α : Type} {n : Nat} (o : Nat) (h : (⟨2, ![n, 128]⟩ : Shape).Slices ![0, o] ⟨2, ![n, 64]⟩)
    (hc : (⟨3, ![1, n, 128]⟩ : Shape).ShapeCasts ⟨2, ![n, 128]⟩) (x : (⟨3, ![1, n, 128]⟩ : Shape).Idx → α)
    (i : Fin n) (d : Fin 64) (c : Fin 128) (hcd : c.val = o + d.val) :
    lanes o h hc x (ix2 i d) = x (ix3 (0 : Fin 1) i c) := by
  unfold lanes
  rw [slice2_axis1_apply o _ h i d c hcd, shapeCast_1ab_ab_apply]

/-- The scaled scores of one head: the queries times the transposed keys into the zero block, times the word of 1/8. -/
def scoresOf (qs : FVec Ideal S512x64 .bf16) (ks : FVec Ideal S2048x64 .bf16) : FVec Ideal S512x2048 .f32 :=
  mulf (matmul dot_S512x64_S64x2048_S512x2048_1_0_0_1_n_n none qs
      (transpose S64x2048 [1, 0] ks transposes_S2048x64_p1_0_S64x2048) (constant S512x2048 .f32 0x00000000#32))
    (broadcast S512x2048 (Scalar.ofBits .f32 0x3E000000#32))

/-- At (i, j): the inner product of query i and key j over the head's 64 lanes, times 1/8. -/
theorem scoresOf_apply (qs : FVec Ideal S512x64 .bf16) (ks : FVec Ideal S2048x64 .bf16) (i : Fin 512) (j : Fin 2048) :
    scoresOf qs ks (ix2 i j) = (∑ d : Fin 64, qs (ix2 i d) * ks (ix2 j d)) * Cert.Attention.eighth := by
  unfold scoresOf
  rw [mulf_apply, dense_apply dot_S512x64_S64x2048_S512x2048_1_0_0_1_n_n rfl]
  refine congrArg₂ (· * ·) (Finset.sum_congr rfl fun d _ => ?_) rfl
  exact congrArg (qs (ix2 i d) * ·) (transpose_ix2_apply ks transposes_S2048x64_p1_0_S64x2048 d j)

/-- A block's rows shifted by their maxima and exponentiated. -/
def expOf (s : FVec Ideal S512x2048 .f32) : FVec Ideal S512x2048 .f32 :=
  Idealize.ShloMosaic.exp (subf s (broadcastTo S512x2048
    (shapeCast S512x1 (multiReduction .maximumf [1] S512 s 0xFF800000#32 reduces_S512x2048_S512 (.inl rfl) rfl) shapeCasts_S512_S512x1)
    broadcasts_S512x1_S512x2048))

/-- At (i, j): the exponential of entry j of row i less the row's maximum. -/
theorem expOf_apply (s : FVec Ideal S512x2048 .f32) (i : Fin 512) (j : Fin 2048) :
    expOf s (ix2 i j) = Cert.Attention.shifted (fun j' => s (ix2 i j')) j := by
  unfold expOf Cert.Attention.shifted Cert.Attention.rowMax
  show Ideal.exp (s (ix2 i j) - broadcastTo S512x2048 _ broadcasts_S512x1_S512x2048 (ix2 i j)) = _
  refine congrArg (fun m => Ideal.exp (s (ix2 i j) - m)) ?_
  exact (Keepdims.broadcastTo_a1_ab_apply _ _ i j).trans
    ((Keepdims.shapeCast_a_a1_apply _ _ i 0).trans (RowMax.rowMax_apply s _ _ _ _ i))

/-- A block's row sums, kept as a column. -/
def sumColOf (e : FVec Ideal S512x2048 .f32) : FVec Ideal S512x1 .f32 :=
  shapeCast S512x1 (multiReduction .add [1] S512 e 0x00000000#32 reduces_S512x2048_S512 (.inl rfl) rfl) shapeCasts_S512_S512x1

/-- At (i, 0): the sum of row i. -/
theorem sumColOf_apply (e : FVec Ideal S512x2048 .f32) (i : Fin 512) (u : Fin 1) :
    sumColOf e (ix2 i u) = ∑ j : Fin 2048, e (ix2 i j) :=
  Keepdims.rowSumKeep_apply e _ _ _ _ _ i u

/-- The numerators over a column of denominators, times a head's values, into the zero block. -/
def ctxOf (e : FVec Ideal S512x2048 .f32) (col : FVec Ideal S512x1 .f32) (vs : FVec Ideal S2048x64 .bf16) :
    FVec Ideal S512x64 .bf16 :=
  truncf .bf16 (matmul dot_S512x2048_S2048x64_S512x64_1_0_0_1_n_n none
    (truncf .bf16 (divf e (broadcastTo S512x2048 col broadcasts_S512x1_S512x2048)) bitsLt_bf16_f32) vs
    (constant S512x64 .f32 0x00000000#32)) bitsLt_bf16_f32

/-- At (i, d): the sum over the keys j of (numerator (i, j) over denominator i) times value (j, d). -/
theorem ctxOf_apply (e : FVec Ideal S512x2048 .f32) (col : FVec Ideal S512x1 .f32) (vs : FVec Ideal S2048x64 .bf16)
    (i : Fin 512) (d : Fin 64) :
    ctxOf e col vs (ix2 i d) = ∑ j : Fin 2048, Ideal.div (e (ix2 i j)) (col (ix2 i (0 : Fin 1))) * vs (ix2 j d) := by
  unfold ctxOf
  rw [truncf_apply, dense_apply dot_S512x2048_S2048x64_S512x64_1_0_0_1_n_n rfl]
  refine Finset.sum_congr rfl fun j _ => ?_
  rw [truncf_apply, divf_apply, Keepdims.broadcastTo_a1_ab_apply]

/-- One head from its scores: the softmax weights of each row of scores applied to the head's values. -/
theorem softmax_ctx_apply (s : FVec Ideal S512x2048 .f32) (vs : FVec Ideal S2048x64 .bf16) (i : Fin 512) (d : Fin 64) :
    ctxOf (expOf s) (sumColOf (expOf s)) vs (ix2 i d)
      = ∑ j : Fin 2048, Cert.Attention.weight (fun j' => s (ix2 i j')) j * vs (ix2 j d) := by
  rw [ctxOf_apply]
  refine Finset.sum_congr rfl fun j _ => ?_
  rw [sumColOf_apply]
  simp only [expOf_apply]
  rfl

/-! ## The attention tile: one head, and the two heads side by side -/

/-- One head of the tile, from the 64 lanes from o of the queries, keys and values: at (i, d), with c = o + d the
    lane of the value read and L d' = o + d' the lanes of the inner products. -/
theorem head_apply (o : Nat) (hq : S512x128.Slices ![0, o] S512x64) (hkv : S2048x128.Slices ![0, o] S2048x64)
    (q : Vec Ideal S1x512x128 .bf16) (k v : Vec Ideal S1x2048x128 .bf16)
    (L : Fin 64 → Fin 128) (hL : ∀ d, (L d).val = o + d.val) (i : Fin 512) (d : Fin 64) (c : Fin 128) (hcd : c.val = o + d.val) :
    ctxOf (expOf (scoresOf (lanes o hq shapeCasts_S1x512x128_S512x128 q) (lanes o hkv shapeCasts_S1x2048x128_S2048x128 k)))
        (sumColOf (expOf (scoresOf (lanes o hq shapeCasts_S1x512x128_S512x128 q) (lanes o hkv shapeCasts_S1x2048x128_S2048x128 k))))
        (lanes o hkv shapeCasts_S1x2048x128_S2048x128 v) (ix2 i d)
      = ∑ j : Fin 2048, Cert.Attention.weight
          (fun j' => (∑ d' : Fin 64, q (ix3 0 i (L d')) * k (ix3 0 j' (L d'))) * Cert.Attention.eighth) j * v (ix3 0 j c) := by
  have hS : (fun j' : Fin 2048 => scoresOf (lanes o hq shapeCasts_S1x512x128_S512x128 q)
        (lanes o hkv shapeCasts_S1x2048x128_S2048x128 k) (ix2 i j'))
      = fun j' => (∑ d' : Fin 64, q (ix3 0 i (L d')) * k (ix3 0 j' (L d'))) * Cert.Attention.eighth := funext fun j' => by
    rw [scoresOf_apply]
    refine congrArg (· * Cert.Attention.eighth) (Finset.sum_congr rfl fun d' _ => ?_)
    rw [lanes_apply o hq _ q i d' (L d') (hL d'), lanes_apply o hkv _ k j' d' (L d') (hL d')]
  refine (softmax_ctx_apply _ _ i d).trans ?_
  rw [hS]
  refine Finset.sum_congr rfl fun j _ => ?_
  rw [lanes_apply o hkv _ v j d c hcd]

/-- Two [512, 64] blocks side by side with a leading unit axis: a lane below 64 reads the first block … -/
theorem tile_left (a b : FVec Ideal S512x64 .bf16) (i : Fin 512) (c : Fin 128) (hc : c.val < 64) :
    shapeCast S1x512x128 (concatenate S512x128 1 [⟨S512x64, a⟩, ⟨S512x64, b⟩] concatenates_S512x64_S512x64_S512x128_d1)
        shapeCasts_S512x128_S1x512x128 (ix3 (0 : Fin 1) i c) = a (ix2 i ⟨c.val, hc⟩) := by
  rw [shapeCast_ab_1ab_apply]
  exact concatenate_pair_apply_left 1 a b concatenates_S512x64_S512x64_S512x128_d1 (ix2 i c) rfl (ix2 i ⟨c.val, hc⟩)
    (fun bx => match bx with | ⟨0, _⟩ => rfl | ⟨1, _⟩ => rfl)

/-- … and a lane from 64 on reads the second block, 64 lanes back. -/
theorem tile_right (a b : FVec Ideal S512x64 .bf16) (i : Fin 512) (c : Fin 128) (hc : 64 ≤ c.val) :
    shapeCast S1x512x128 (concatenate S512x128 1 [⟨S512x64, a⟩, ⟨S512x64, b⟩] concatenates_S512x64_S512x64_S512x128_d1)
        shapeCasts_S512x128_S1x512x128 (ix3 (0 : Fin 1) i c) = b (ix2 i ⟨c.val - 64, by have := c.isLt; omega⟩) := by
  rw [shapeCast_ab_1ab_apply]
  exact concatenate_pair_apply_right 1 a b concatenates_S512x64_S512x64_S512x128_d1 (ix2 i c) rfl rfl
    (ix2 i ⟨c.val - 64, by have := c.isLt; omega⟩)
    (fun bx hb => match bx, hb with | ⟨0, _⟩, _ => rfl | ⟨1, _⟩, hb => (hb rfl).elim)
    (by show c.val - 64 + 64 = c.val; omega)

/-- The attention tile at (0, i, c): the softmax weights of row i of the scores of lane c's head, applied to the
    values' lane c. -/
theorem attn_tile (q : Vec Ideal S1x512x128 .bf16) (k v : Vec Ideal S1x2048x128 .bf16) (i : Fin 512) (c : Fin 128) :
    k1_pay1 (k1_pay5 q k v) (k1_pay6 v) (k1_pay7 q k) (k1_pay8 q k) (ix3 0 i c)
      = ∑ j : Fin 2048, Cert.Attention.weight
          (fun j' => (∑ d : Fin 64, q (ix3 0 i (lane c d)) * k (ix3 0 j' (lane c d))) * Cert.Attention.eighth) j * v (ix3 0 j c) := by
  by_cases hc : c.val < 64
  · refine (tile_left (k1_pay5 q k v) _ i c hc).trans ?_
    exact head_apply 0 slices_S512x128_o0_0_S512x64 slices_S2048x128_o0_0_S2048x64 q k v (lane c)
      (fun d => by show 64 * (c.val / 64) + d.val = 0 + d.val; omega) i ⟨c.val, hc⟩ c (Nat.zero_add _).symm
  · have hc' : 64 ≤ c.val := Nat.le_of_not_lt hc
    refine (tile_right (k1_pay5 q k v) _ i c hc').trans ?_
    exact head_apply 64 slices_S512x128_o0_64_S512x64 slices_S2048x128_o0_64_S2048x64 q k v (lane c)
      (fun d => by show 64 * (c.val / 64) + d.val = 64 + d.val; have := c.isLt; omega) i ⟨c.val - 64, by have := c.isLt; omega⟩ c
      (by show c.val = 64 + (c.val - 64); omega)

end Cert.Bodies

end
-- ==== Proof.ValueHeads.lean ====
/-
  What the attention region leaves in its result array, as one function of the packed array of queries, keys and
  values it reads, index by index: entry (b, s, e) of the result is the context of position s in the head that owns
  feature e — the head's value column e weighted, over all 2048 positions j, by the softmax weights of the scaled inner
  products of query s with the keys, taken over the head's 64 lanes. A grid point writes the [512, 128] tile of one
  batch entry, one pair of heads and one tile of queries; the 128 tiles fill the [4, 2048, 1024] result.
-/
import proofs.«146471_j31877247271608_2_alg».proof.Proof.KI.Heads
import proofs.«146471_j31877247271608_2_alg».proof.Proof.BodiesAttn
import proofs.«146471_j31877247271608_2_alg».proof.Proof.Spec
import Idealize.ShloMosaic.Lib.Pipeline.Value
import Idealize.ShloMosaic.Lib.ValueIdx

set_option maxRecDepth 16384

noncomputable section

namespace Cert.ValueHeads

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Heads Cert.Attention

open Cert.Bodies (lane attn_tile)

/-- In the packed array, the column of lane `d` of the head owning feature `e`: among the queries, among the keys;
    and the value column of feature `e`. -/
def qcol (e : Fin 1024) (d : Fin 64) : Fin 3072 := ⟨64 * (e.val / 64) + d.val, by omega⟩
def kcol (e : Fin 1024) (d : Fin 64) : Fin 3072 := ⟨1024 + 64 * (e.val / 64) + d.val, by omega⟩
def vcol (e : Fin 1024) : Fin 3072 := ⟨2048 + e.val, by omega⟩

/-- The contexts as a function of the packed array. -/
def attend (p : S4x2048x3072.Idx → EReal) : S4x2048x1024.Idx → EReal := fun i =>
  ∑ j : Fin 2048, weight (fun j' => (∑ d : Fin 64, p (ix3 (i 0) (i 1) (qcol (i 2) d)) * p (ix3 (i 0) j' (kcol (i 2) d))) * eighth) j
    * p (ix3 (i 0) j (vcol (i 2)))

variable (V : (c : Dev nD) → (b : Ref sig .tc) → Buf (Elt Ideal) ((c : Thread nD τ).loc b))

theorem origin3 : (![0, 0, 0] : Fin 3 → Nat) = fun _ => 0 := funext fun a => by fin_cases a <;> rfl

/-- The four windows' block indices at a grid point, decided over the grid: the query tile and the result tile move
    together; the keys and values are the pair's columns 8 and 16 blocks further, over all positions. -/
theorem block_indices : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3) + 8
    ∧ win1_2.index t (0 : Fin 3) = win1_3.index t (0 : Fin 3) ∧ win1_2.index t (1 : Fin 3) = 0
    ∧ win1_2.index t (2 : Fin 3) = win1_3.index t (2 : Fin 3) + 16
    ∧ win1_3.index t (0 : Fin 3) ≤ 3 ∧ win1_3.index t (1 : Fin 3) ≤ 3 ∧ win1_3.index t (2 : Fin 3) ≤ 7 :=
  (by decide +kernel : ∀ t : Fin grid1.N, _)

/-- Every tile of the result is some point's. -/
theorem tiles_onto : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

/-- What point `t` writes back is tile `t` of `attend` of the packed array as the region finds it. -/
theorem flushed_eq (c : Dev nD) (t : Fin cfg1.N) :
    (proofData V c).flushed 3 t = ((cfg1.win 3).blk t).view.read (Elt Ideal) (attend (V c main_v10)) := by
  show (cfg1.win 3).cut (grid1.coords t) ((proofData V c).after 3 t) = _
  rw [after_out]
  unfold stored
  rw [View.canon_unit_zero origin3]
  simp only [View.ld_unit_zero (S := S1x512x128) origin3, View.ld_unit_zero (S := S1x2048x128) origin3]
  obtain ⟨e0, e1, e2, e3, e4, e5, e6, e7, e8, b0, b1, b2⟩ := block_indices t
  funext y
  obtain ⟨z, i, cc, rfl⟩ : ∃ (z : Fin 1) (i : Fin 512) (cc : Fin 128), y = ix3 z i cc := ⟨y 0, y 1, y 2, eq_ix3 y⟩
  obtain rfl : z = 0 := Subsingleton.elim _ _
  refine (attn_tile (tileOf V c 0 t) (tileOf V c 1 t) (tileOf V c 2 t) i cc).trans ?_
  have hq : ∀ d : Fin 64, tileOf V c 0 t (ix3 0 i (lane cc d))
      = V c main_v10 (ix3 ((((cfg1.win 3).blk t).view.emb (ix3 0 i cc)) 0) ((((cfg1.win 3).blk t).view.emb (ix3 0 i cc)) 1)
          (qcol ((((cfg1.win 3).blk t).view.emb (ix3 0 i cc)) 2) d)) := fun d => by
    show V c main_v10 (((cfg1.win 0).blk t).view.emb (ix3 0 i (lane cc d))) = _
    congr 1
    funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 512 + 1 * i.val = win1_3.index t (1 : Fin 3) * 512 + 1 * i.val; omega
    | ⟨2, _⟩ =>
      show win1_0.index t (2 : Fin 3) * 128 + 1 * (64 * (cc.val / 64) + d.val) = 64 * ((win1_3.index t (2 : Fin 3) * 128 + 1 * cc.val) / 64) + d.val
      have := cc.isLt; have := d.isLt; omega
  have hk : ∀ (j' : Fin 2048) (d : Fin 64), tileOf V c 1 t (ix3 0 j' (lane cc d))
      = V c main_v10 (ix3 ((((cfg1.win 3).blk t).view.emb (ix3 0 i cc)) 0) j'
          (kcol ((((cfg1.win 3).blk t).view.emb (ix3 0 i cc)) 2) d)) := fun j' d => by
    show V c main_v10 (((cfg1.win 1).blk t).view.emb (ix3 0 j' (lane cc d))) = _
    congr 1
    funext a; apply Fin.ext
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * j'.val = j'.val; omega
    | ⟨2, _⟩ =>
      show win1_1.index t (2 : Fin 3) * 128 + 1 * (64 * (cc.val / 64) + d.val) = 1024 + 64 * ((win1_3.index t (2 : Fin 3) * 128 + 1 * cc.val) / 64) + d.val
      have := cc.isLt; have := d.isLt; omega
  have hv : ∀ j : Fin 2048, tileOf V c 2 t (ix3 0 j cc)
      = V c main_v10 (ix3 ((((cfg1.win 3).blk t).view.emb (ix3 0 i cc)) 0) j
          (vcol ((((cfg1.win 3).blk t).view.emb (ix3 0 i cc)) 2))) := fun j => by
    show V c main_v10 (((cfg1.win 2).blk t).view.emb (ix3 0 j cc)) = _
    congr 1
    funext a; apply Fin.ext
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * j.val = j.val; omega
    | ⟨2, _⟩ =>
      show win1_2.index t (2 : Fin 3) * 128 + 1 * cc.val = 2048 + (win1_3.index t (2 : Fin 3) * 128 + 1 * cc.val)
      have := cc.isLt; omega
  simp only [hq, hk, hv]
  rfl

/-- An index of the result is in point `t`'s tile iff each coordinate is in the tile's range on its axis. -/
theorem mem_tile (t : Fin cfg1.N) (i : S4x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v11).slice (win1_3.rect t)).set ↔ _
  rw [View.set_slice_whole, Rect.mem_set_unit]
  exact Iff.rfl

/-- The tiles fill the result. -/
theorem tiles_cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := tiles_onto ⟨(i 0).val, by omega⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_tile]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The result array after the region: `attend` of the packed array as the region finds it. -/
theorem final (c : Dev nD) : (proofData V c).arrAt 3 cfg1.N = attend (V c main_v10) :=
  (proofData V c).arrAt_eq_of_cover 3 (attend (V c main_v10)) (fun t _ => flushed_eq V c t) tiles_cover

end Cert.ValueHeads

end
-- ==== Proof.ValueOut.lean ====
/-
  The output projection's result array after its region, as one function of the arrays it reads.

  The region runs 8 grid points; point t takes rows 1024 t .. 1024 t + 1023 of the rows array, the whole weight
  matrix and the whole bias row, and writes back the same rows of the result. Every point's block of the result is
  the same function of the three arrays read through the block, and the 8 blocks tile the result, so after the
  region the result array is that function: at (r, c) the sum over k of rows (r, k) times weights (k, c), plus
  bias (0, c).
-/
import proofs.«146471_j31877247271608_2_alg».proof.Proof.KI.ProjOut
import proofs.«146471_j31877247271608_2_alg».proof.Proof.Bodies
import Idealize.ShloMosaic.Lib.Pipeline.Value

noncomputable section

namespace Cert.ValueOut

open Cert.KernelIdeal Cert.KernelIdeal.Gen Cert.KernelIdeal.ProjOut
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- A linear map with bias on every row: at (r, c) the sum over k of x (r, k) w (k, c), plus bias (0, c). -/
def dense (x : S8192x1024.Idx → EReal) (w : S1024x1024.Idx → EReal) (bias : S1x1024.Idx → EReal) : S8192x1024.Idx → EReal :=
  fun i => (∑ k : Fin 1024, x (ix2 (i 0) k) * w (ix2 k (i 1))) + bias (ix2 0 (i 1))

theorem zero_offsets : (![0, 0] : Fin 2 → Nat) = fun _ => 0 := funext fun a => by fin_cases a <;> rfl

/-- The printed index maps, decided over the grid: the rows window moves with the result window along the rows and
    stays at column block 0, as the result window does; the weight and bias windows stay at block (0, 0). -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every row block of the result is some point's. -/
theorem index_onto : ∀ q : Fin 8, ∃ t : Fin cfg2.N, win2_3.index t = ![q.val, 0] :=
  (by decide +kernel : ∀ q : Fin 8, ∃ t : Fin grid2.N, win2_3.index t = ![q.val, 0])

/-- What point t writes back is block t of the linear map of the three arrays as the region finds them. -/
theorem flushed_eq (c : Dev nD) (t : Fin cfg2.N) :
    (proofData V c).flushed 3 t
      = ((cfg2.win 3).blk t).view.read (Elt Ideal) (dense (V c main_v12) (V c main_v6) (V c main_v7)) := by
  show (cfg2.win 3).cut (grid2.coords t) ((proofData V c).after 3 t) = _
  rw [after_out]
  unfold stored
  rw [View.canon_unit_zero zero_offsets]
  simp only [View.ld_unit_zero (S := S1024x1024) zero_offsets, View.ld_unit_zero (S := S1024x1024) zero_offsets,
    View.ld_unit_zero (S := S1x1024) zero_offsets]
  obtain ⟨e0, e1, e2, e3, e4, e5, e6, e7⟩ := index_facts t
  funext j
  obtain ⟨r, cc, rfl⟩ : ∃ (r : Fin 1024) (cc : Fin 1024), j = ix2 r cc := ⟨j 0, j 1, eq_ix2 j⟩
  refine (Cert.Bodies.out_tile _ _ _ r cc).trans ?_
  have hr := r.isLt
  have hcc := cc.isLt
  -- the row of the arrays that row r of block t is
  have hrow : win2_3.index t (0 : Fin 2) * 1024 + r.val < 8192 := by omega
  have hout : ((cfg2.win 3).blk t).view.emb (ix2 r cc) = ix2 (⟨win2_3.index t (0 : Fin 2) * 1024 + r.val, hrow⟩ : Fin 8192) cc := by
    funext a
    apply Fin.ext
    match a with
    | ⟨0, _⟩ => show win2_3.index t (0 : Fin 2) * 1024 + 1 * r.val = win2_3.index t (0 : Fin 2) * 1024 + r.val; omega
    | ⟨1, _⟩ => show win2_3.index t (1 : Fin 2) * 1024 + 1 * cc.val = cc.val; omega
  have hx : ∀ k : Fin 1024, tileOf V c 0 t (ix2 r k)
      = V c main_v12 (ix2 (⟨win2_3.index t (0 : Fin 2) * 1024 + r.val, hrow⟩ : Fin 8192) k) := fun k => by
    have hk := k.isLt
    show V c main_v12 (((cfg2.win 0).blk t).view.emb (ix2 r k)) = _
    refine congrArg (V c main_v12) (funext fun a => Fin.ext ?_)
    match a with
    | ⟨0, _⟩ => show win2_0.index t (0 : Fin 2) * 1024 + 1 * r.val = win2_3.index t (0 : Fin 2) * 1024 + r.val; omega
    | ⟨1, _⟩ => show win2_0.index t (1 : Fin 2) * 1024 + 1 * k.val = k.val; omega
  have hw : ∀ k : Fin 1024, tileOf V c 1 t (ix2 k cc) = V c main_v6 (ix2 k cc) := fun k => by
    have hk := k.isLt
    show V c main_v6 (((cfg2.win 1).blk t).view.emb (ix2 k cc)) = _
    refine congrArg (V c main_v6) (funext fun a => Fin.ext ?_)
    match a with
    | ⟨0, _⟩ => show win2_1.index t (0 : Fin 2) * 1024 + 1 * k.val = k.val; omega
    | ⟨1, _⟩ => show win2_1.index t (1 : Fin 2) * 1024 + 1 * cc.val = cc.val; omega
  have hb : tileOf V c 2 t (ix2 0 cc) = V c main_v7 (ix2 0 cc) := by
    show V c main_v7 (((cfg2.win 2).blk t).view.emb (ix2 0 cc)) = _
    refine congrArg (V c main_v7) (funext fun a => Fin.ext ?_)
    match a with
    | ⟨0, _⟩ => show win2_2.index t (0 : Fin 2) * 1 + 1 * 0 = 0; omega
    | ⟨1, _⟩ => show win2_2.index t (1 : Fin 2) * 1024 + 1 * cc.val = cc.val; omega
  show _ = dense (V c main_v12) (V c main_v6) (V c main_v7) (((cfg2.win 3).blk t).view.emb (ix2 r cc))
  rw [hout, hb]
  exact congrArg (· + V c main_v7 (ix2 0 cc)) (Finset.sum_congr rfl fun k _ => by rw [hx k, hw k])

/-- An index of the result is in point t's block iff each coordinate is in the block's range on its axis. -/
theorem mem_block (t : Fin cfg2.N) (i : S8192x1024.Idx) :
    i ∈ ((cfg2.win 3).blk t).view.set
      ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

/-- The blocks tile the result: row r is in the block of the point whose row block is r / 1024. -/
theorem covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := index_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The result array after the region is the linear map of the three arrays as the region finds them. -/
theorem final (c : Dev nD) :
    (proofData V c).arrAt 3 cfg2.N = dense (V c main_v12) (V c main_v6) (V c main_v7) :=
  (proofData V c).arrAt_eq_of_cover 3 (dense (V c main_v12) (V c main_v6) (V c main_v7)) (fun t _ => flushed_eq V c t) covered

end Cert.ValueOut

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.LibPackedRows.lean ====
/-
  Three matrices stacked along the rows and transposed, and three vectors laid end to end and cast to a one-row
  matrix, read at coordinates.

  Stack three 1024 x 1024 matrices Wq, Wk, Wv on top of each other into a 3072 x 1024 matrix and transpose it.  Column
  col of row k of the result is entry (col, k) of the stack, which is entry (e, k) of Wq, Wk or Wv according to the
  third col = e, col = 1024 + e or col = 2048 + e falls in.  Likewise three vectors of 1024 entries laid end to end
  and viewed as one row of 3072 entries read, at (0, col), the entry e of the first, second or third vector.
-/
import Idealize.ShloMosaic.Lib.Pipeline.Value
import Idealize.ShloMosaic.Lib.ValueIdx
import Idealize.ShloMosaic.Lib.ValueLayout

namespace Cert.Packed

open Idealize.ShloMosaic Idealize.ShloMosaic.ValueIdx

/-- A square matrix, three of them stacked along the rows, the stack transposed; a vector, three laid end to end,
    and those as a one-row matrix. -/
abbrev M : Shape := ⟨2, ![1024, 1024]⟩
abbrev M3 : Shape := ⟨2, ![3072, 1024]⟩
abbrev T3 : Shape := ⟨2, ![1024, 3072]⟩
abbrev B : Shape := ⟨1, ![1024]⟩
abbrev B3 : Shape := ⟨1, ![3072]⟩
abbrev R3 : Shape := ⟨2, ![1, 3072]⟩

variable {α : Type}

/-- Row r = pre + e of the stack, at column k, is entry (e, k) of piece n, when pre is the number of rows before it. -/
theorem stack_apply (Wq Wk Wv : M.Idx → α) (hc : Shape.Concatenates [M, M, M] M3 0) (n : Nat) (hn : n < 3)
    (W : M.Idx → α) (hW : [(⟨M, Wq⟩ : (s : Shape) × (s.Idx → α)), ⟨M, Wk⟩, ⟨M, Wv⟩][n] = ⟨M, W⟩) (pre : Nat)
    (hpre : ((([(⟨M, Wq⟩ : (s : Shape) × (s.Idx → α)), ⟨M, Wk⟩, ⟨M, Wv⟩].take n).map (·.1)).map
      fun s => if h : s.rank = M3.rank then s.size ((0 : Fin M3.rank).cast h.symm) else 0).sum = pre)
    (r : Fin 3072) (k : Fin 1024) (e : Fin 1024) (h : r.val = pre + e.val) :
    concatenate M3 0 [⟨M, Wq⟩, ⟨M, Wk⟩, ⟨M, Wv⟩] hc (ix2 r k) = W (ix2 e k) :=
  concatenate_apply_piece 0 [⟨M, Wq⟩, ⟨M, Wk⟩, ⟨M, Wv⟩] hc (ix2 r k) n hn M W hW rfl pre hpre (ix2 e k)
    (fun b hb => match b, hb with | ⟨0, _⟩, hb => (hb rfl).elim | ⟨1, _⟩, _ => rfl)
    (by show pre + e.val = r.val; omega)

/-- The transposed stack at (k, col), col in the first third: the first matrix at (col, k). -/
theorem weight_q (Wq Wk Wv : M.Idx → α) (hc : Shape.Concatenates [M, M, M] M3 0) (ht : M3.Transposes [1, 0] T3)
    (k : Fin 1024) (col : Fin 3072) (e : Fin 1024) (h : col.val = e.val) :
    transpose T3 [1, 0] (concatenate M3 0 [⟨M, Wq⟩, ⟨M, Wk⟩, ⟨M, Wv⟩] hc) ht (ix2 k col) = Wq (ix2 e k) :=
  (transpose_ix2_apply _ ht k col).trans
    (stack_apply Wq Wk Wv hc 0 (by decide) Wq rfl 0 rfl col k e (by omega))

/-- … col in the second third: the second matrix at (col - 1024, k). -/
theorem weight_k (Wq Wk Wv : M.Idx → α) (hc : Shape.Concatenates [M, M, M] M3 0) (ht : M3.Transposes [1, 0] T3)
    (k : Fin 1024) (col : Fin 3072) (e : Fin 1024) (h : col.val = 1024 + e.val) :
    transpose T3 [1, 0] (concatenate M3 0 [⟨M, Wq⟩, ⟨M, Wk⟩, ⟨M, Wv⟩] hc) ht (ix2 k col) = Wk (ix2 e k) :=
  (transpose_ix2_apply _ ht k col).trans
    (stack_apply Wq Wk Wv hc 1 (by decide) Wk rfl 1024 (by simp) col k e h)

/-- … col in the last third: the third matrix at (col - 2048, k). -/
theorem weight_v (Wq Wk Wv : M.Idx → α) (hc : Shape.Concatenates [M, M, M] M3 0) (ht : M3.Transposes [1, 0] T3)
    (k : Fin 1024) (col : Fin 3072) (e : Fin 1024) (h : col.val = 2048 + e.val) :
    transpose T3 [1, 0] (concatenate M3 0 [⟨M, Wq⟩, ⟨M, Wk⟩, ⟨M, Wv⟩] hc) ht (ix2 k col) = Wv (ix2 e k) :=
  (transpose_ix2_apply _ ht k col).trans
    (stack_apply Wq Wk Wv hc 2 (by decide) Wv rfl 2048 (by simp) col k e h)

/-- Entry r = pre + e of three vectors laid end to end is entry e of piece n, when pre is the number of entries before it. -/
theorem join_apply (bq bk bv : B.Idx → α) (hc : Shape.Concatenates [B, B, B] B3 0) (n : Nat) (hn : n < 3)
    (b : B.Idx → α) (hb : [(⟨B, bq⟩ : (s : Shape) × (s.Idx → α)), ⟨B, bk⟩, ⟨B, bv⟩][n] = ⟨B, b⟩) (pre : Nat)
    (hpre : ((([(⟨B, bq⟩ : (s : Shape) × (s.Idx → α)), ⟨B, bk⟩, ⟨B, bv⟩].take n).map (·.1)).map
      fun s => if h : s.rank = B3.rank then s.size ((0 : Fin B3.rank).cast h.symm) else 0).sum = pre)
    (r : Fin 3072) (e : Fin 1024) (h : r.val = pre + e.val) :
    concatenate B3 0 [⟨B, bq⟩, ⟨B, bk⟩, ⟨B, bv⟩] hc (ix1 r) = b (ix1 e) :=
  concatenate_apply_piece 0 [⟨B, bq⟩, ⟨B, bk⟩, ⟨B, bv⟩] hc (ix1 r) n hn B b hb rfl pre hpre (ix1 e)
    (fun a ha => match a, ha with | ⟨0, _⟩, ha => (ha rfl).elim)
    (by show pre + e.val = r.val; omega)

/-- The one-row matrix at (0, col), col in the first third: the first vector at col. -/
theorem bias_q (bq bk bv : B.Idx → α) (hc : Shape.Concatenates [B, B, B] B3 0) (hs : B3.ShapeCasts R3)
    (col : Fin 3072) (e : Fin 1024) (h : col.val = e.val) :
    shapeCast R3 (concatenate B3 0 [⟨B, bq⟩, ⟨B, bk⟩, ⟨B, bv⟩] hc) hs (ix2 0 col) = bq (ix1 e) :=
  (shapeCast_a_1a_apply _ hs 0 col).trans
    (join_apply bq bk bv hc 0 (by decide) bq rfl 0 rfl col e (by omega))

/-- … col in the second third: the second vector at col - 1024. -/
theorem bias_k (bq bk bv : B.Idx → α) (hc : Shape.Concatenates [B, B, B] B3 0) (hs : B3.ShapeCasts R3)
    (col : Fin 3072) (e : Fin 1024) (h : col.val = 1024 + e.val) :
    shapeCast R3 (concatenate B3 0 [⟨B, bq⟩, ⟨B, bk⟩, ⟨B, bv⟩] hc) hs (ix2 0 col) = bk (ix1 e) :=
  (shapeCast_a_1a_apply _ hs 0 col).trans
    (join_apply bq bk bv hc 1 (by decide) bk rfl 1024 (by simp) col e h)

/-- … col in the last third: the third vector at col - 2048. -/
theorem bias_v (bq bk bv : B.Idx → α) (hc : Shape.Concatenates [B, B, B] B3 0) (hs : B3.ShapeCasts R3)
    (col : Fin 3072) (e : Fin 1024) (h : col.val = 2048 + e.val) :
    shapeCast R3 (concatenate B3 0 [⟨B, bq⟩, ⟨B, bk⟩, ⟨B, bv⟩] hc) hs (ix2 0 col) = bv (ix1 e) :=
  (shapeCast_a_1a_apply _ hs 0 col).trans
    (join_apply bq bk bv hc 2 (by decide) bv rfl 2048 (by simp) col e h)

end Cert.Packed
-- ==== Proof.Bridge.lean ====
/-
  The kernel's result is multi-head attention of its arguments.
  The run leaves, in the result buffer, the last reshape of what the output projection wrote; that region wrote the
  merged contexts times the transposed output weights plus the bias; the merged contexts are the attention region's
  result over the packed array of queries, keys and values; and the packed array is the fused projection of the
  flattened input by the three weight matrices stacked and transposed, plus the three biases laid end to end. Read
  index by index, with feature 64 h + d the lane d of head h, column e (resp. 1024 + e, 2048 + e) of the packed array is
  query (resp. key, value) feature e, and the whole is the specification's `attention`.
-/
import proofs.«146471_j31877247271608_2_alg».proof.Proof.KI.Whole
import proofs.«146471_j31877247271608_2_alg».proof.Proof.ValueIn
import proofs.«146471_j31877247271608_2_alg».proof.Proof.ValueHeads
import proofs.«146471_j31877247271608_2_alg».proof.Proof.ValueOut
import proofs.«146471_j31877247271608_2_alg».proof.Proof.LibFlattenRows
import proofs.«146471_j31877247271608_2_alg».proof.Proof.LibPackedRows
import proofs.«146471_j31877247271608_2_alg».proof.Proof.Spec
import Idealize.ShloMosaic.Lib.StableHlo.Run
import Idealize.ShloMosaic.Lib.ValueLayout
import Idealize.ShloMosaic.PureOps.Ideal

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Whole Cert.Attention

variable (m : (ℓ : Loc nD τ sig) → Buf (Elt Idealize.ShloMosaic.Ideal) ℓ) (c : Dev nD)

/-! ## The arguments -/

abbrev argX : S4x2048x1024.Idx → EReal := m ((c : Thread nD τ).loc main_arg0)
abbrev argWq : S1024x1024.Idx → EReal := m ((c : Thread nD τ).loc main_arg1)
abbrev argBq : S1024.Idx → EReal := m ((c : Thread nD τ).loc main_arg2)
abbrev argWk : S1024x1024.Idx → EReal := m ((c : Thread nD τ).loc main_arg3)
abbrev argBk : S1024.Idx → EReal := m ((c : Thread nD τ).loc main_arg4)
abbrev argWv : S1024x1024.Idx → EReal := m ((c : Thread nD τ).loc main_arg5)
abbrev argBv : S1024.Idx → EReal := m ((c : Thread nD τ).loc main_arg6)
abbrev argWo : S1024x1024.Idx → EReal := m ((c : Thread nD τ).loc main_arg7)
abbrev argBo : S1024.Idx → EReal := m ((c : Thread nD τ).loc main_arg8)

/-! ## What the host stretches write -/

theorem rows_in : (at1 m c main_v8 : S8192x1024.Idx → EReal)
    = shapeCast S8192x1024 (argX m c) shapeCasts_S4x2048x1024_S8192x1024 := by
  show StableHlo.after hostOps0 (fun b => m (c, b)) (Proc.devRef .tc main_v8) = _
  after_results <;> rfl

theorem weights_in : (at1 m c main_v2 : S1024x3072.Idx → EReal)
    = (truncf (F := Idealize.ShloMosaic.Ideal) .bf16 (transpose S1024x3072 [1, 0] (concatenate S3072x1024 0 [⟨S1024x1024, argWq m c⟩, ⟨S1024x1024, argWk m c⟩, ⟨S1024x1024, argWv m c⟩]
        concatenates_S1024x1024_S1024x1024_S1024x1024_S3072x1024_d0) transposes_S3072x1024_S1024x3072_1_0) bitsLt_bf16_f32 : S1024x3072.Idx → EReal) := by
  show StableHlo.after hostOps0 (fun b => m (c, b)) (Proc.devRef .tc main_v2) = _
  after_results <;> rfl

theorem bias_in : (at1 m c main_v4 : S1x3072.Idx → EReal)
    = shapeCast S1x3072 (concatenate S3072 0 [⟨S1024, argBq m c⟩, ⟨S1024, argBk m c⟩, ⟨S1024, argBv m c⟩]
        concatenates_S1024_S1024_S1024_S3072_d0) shapeCasts_S3072_S1x3072 := by
  show StableHlo.after hostOps0 (fun b => m (c, b)) (Proc.devRef .tc main_v4) = _
  after_results <;> rfl

theorem wo_in : (at1 m c main_v6 : S1024x1024.Idx → EReal)
    = (truncf (F := Idealize.ShloMosaic.Ideal) .bf16 (transpose S1024x1024 [1, 0] (argWo m c) transposes_S1024x1024_S1024x1024_1_0) bitsLt_bf16_f32 : S1024x1024.Idx → EReal) := by
  show StableHlo.after hostOps0 (fun b => m (c, b)) (Proc.devRef .tc main_v6) = _
  after_results <;> rfl

theorem bo_in : (at1 m c main_v7 : S1x1024.Idx → EReal) = shapeCast S1x1024 (argBo m c) shapeCasts_S1024_S1x1024 := by
  show StableHlo.after hostOps0 (fun b => m (c, b)) (Proc.devRef .tc main_v7) = _
  after_results <;> rfl

theorem packed_in : (at3 m c main_v10 : S4x2048x3072.Idx → EReal)
    = shapeCast S4x2048x3072 (at2 m c main_v9) shapeCasts_S8192x3072_S4x2048x3072 := by
  show StableHlo.after hostOps1 (at2 m c) (Proc.devRef .tc main_v10) = _
  after_results <;> rfl

theorem ctx_in : (at5 m c main_v12 : S8192x1024.Idx → EReal)
    = shapeCast S8192x1024 (at4 m c main_v11) shapeCasts_S4x2048x1024_S8192x1024 := by
  show StableHlo.after hostOps2 (at4 m c) (Proc.devRef .tc main_v12) = _
  after_results <;> rfl

theorem result_end : (at7 m c main_v14 : S4x2048x1024.Idx → EReal)
    = shapeCast S4x2048x1024 (at6 m c main_v13) shapeCasts_S8192x1024_S4x2048x1024 := by
  show StableHlo.after hostOps3 (at6 m c) (Proc.devRef .tc main_v14) = _
  after_results <;> rfl

/-- A buffer written before the first region only is still there when the last region starts. -/
theorem at5_early (r : Ref sig .tc) (h1 : r ∉ hostOps1_W) (h2 : r ∉ hostOps2_W) (n9 : r ≠ main_v9) (n11 : r ≠ main_v11) :
    at5 m c r = at1 m c r :=
  (StableHlo.after_of_writes_sub hostOps2 _ hostOps2_writes h2).trans <|
    (at4_other m c r n11).trans <| (StableHlo.after_of_writes_sub hostOps1 _ hostOps1_writes h1).trans <|
    (at2_other m c r n9)

/-! ## The buffers the regions read and write, as arrays of extended reals -/

def rows1 : S8192x1024.Idx → EReal := at1 m c main_v8
def weights1 : S1024x3072.Idx → EReal := at1 m c main_v2
def bias1 : S1x3072.Idx → EReal := at1 m c main_v4
def wo1 : S1024x1024.Idx → EReal := at1 m c main_v6
def bo1 : S1x1024.Idx → EReal := at1 m c main_v7
def qkv2 : S8192x3072.Idx → EReal := at2 m c main_v9
def packed3 : S4x2048x3072.Idx → EReal := at3 m c main_v10
def ctx4 : S4x2048x1024.Idx → EReal := at4 m c main_v11
def ctx5 : S8192x1024.Idx → EReal := at5 m c main_v12
def wo5 : S1024x1024.Idx → EReal := at5 m c main_v6
def bo5 : S1x1024.Idx → EReal := at5 m c main_v7
def out6 : S8192x1024.Idx → EReal := at6 m c main_v13
def res7 : S4x2048x1024.Idx → EReal := at7 m c main_v14

theorem rows1_eq : rows1 m c = shapeCast S8192x1024 (argX m c) shapeCasts_S4x2048x1024_S8192x1024 := rows_in m c
theorem weights1_eq : weights1 m c = (truncf (F := Idealize.ShloMosaic.Ideal) .bf16 (transpose S1024x3072 [1, 0] (concatenate S3072x1024 0 [⟨S1024x1024, argWq m c⟩, ⟨S1024x1024, argWk m c⟩, ⟨S1024x1024, argWv m c⟩]
        concatenates_S1024x1024_S1024x1024_S1024x1024_S3072x1024_d0) transposes_S3072x1024_S1024x3072_1_0) bitsLt_bf16_f32 : S1024x3072.Idx → EReal) := weights_in m c
theorem bias1_eq : bias1 m c = shapeCast S1x3072 (concatenate S3072 0 [⟨S1024, argBq m c⟩, ⟨S1024, argBk m c⟩, ⟨S1024, argBv m c⟩]
        concatenates_S1024_S1024_S1024_S3072_d0) shapeCasts_S3072_S1x3072 := bias_in m c
theorem wo5_eq : wo5 m c = (truncf (F := Idealize.ShloMosaic.Ideal) .bf16 (transpose S1024x1024 [1, 0] (argWo m c) transposes_S1024x1024_S1024x1024_1_0) bitsLt_bf16_f32 : S1024x1024.Idx → EReal) :=
  (at5_early m c main_v6 (by decide) (by decide) (by decide) (by decide)).trans (wo_in m c)
theorem bo5_eq : bo5 m c = shapeCast S1x1024 (argBo m c) shapeCasts_S1024_S1x1024 :=
  (at5_early m c main_v7 (by decide) (by decide) (by decide) (by decide)).trans (bo_in m c)
theorem packed3_eq : packed3 m c = shapeCast S4x2048x3072 (qkv2 m c) shapeCasts_S8192x3072_S4x2048x3072 := packed_in m c
theorem ctx5_eq : ctx5 m c = shapeCast S8192x1024 (ctx4 m c) shapeCasts_S4x2048x1024_S8192x1024 := ctx_in m c
theorem res7_eq : res7 m c = shapeCast S4x2048x1024 (out6 m c) shapeCasts_S8192x1024_S4x2048x1024 := result_end m c

/-! ## What the regions write -/

theorem qkv2_eq : qkv2 m c = Cert.ValueIn.dense (rows1 m c) (weights1 m c) (bias1 m c) :=
  (at2_result m c).trans (Cert.ValueIn.final (in1 m) c)

theorem ctx4_eq : ctx4 m c = Cert.ValueHeads.attend (packed3 m c) :=
  (at4_result m c).trans (Cert.ValueHeads.final (in3 m) c)

theorem out6_eq : out6 m c = Cert.ValueOut.dense (ctx5 m c) (wo5 m c) (bo5 m c) :=
  (at6_result m c).trans (Cert.ValueOut.final (in5 m) c)

/-! ## The packed array, column by column -/

/-- Row `2048 b + s` of a matrix of 8192 rows. -/
def rowOf (b : Fin 4) (s : Fin 2048) : Fin 8192 := ⟨b.val * 2048 + s.val, by omega⟩

/-- An entry of the packed array: the input's row against a column of the stacked transposed weights, plus the bias. -/
theorem packed_at (b : Fin 4) (s : Fin 2048) (col : Fin 3072) :
    packed3 m c (ix3 b s col)
      = (∑ k : Fin 1024, argX m c (ix3 b s k) * weights1 m c (ix2 k col)) + bias1 m c (ix2 0 col) := by
  rw [packed3_eq]
  refine (Cert.FlattenRows.unflatten_apply _ shapeCasts_S8192x3072_S4x2048x3072 b s col (rowOf b s) rfl).trans ?_
  rw [qkv2_eq]
  show (∑ k : Fin 1024, rows1 m c (ix2 (rowOf b s) k) * weights1 m c (ix2 k col)) + bias1 m c (ix2 0 col) = _
  refine congrArg (· + _) (Finset.sum_congr rfl fun k _ => congrArg (· * _) ?_)
  rw [rows1_eq]
  exact Cert.FlattenRows.flatten_apply _ shapeCasts_S4x2048x1024_S8192x1024 b s k (rowOf b s) rfl

/-- The query columns: lane `d` of the head owning feature `e`. -/
theorem q_at (b : Fin 4) (s : Fin 2048) (e : Fin 1024) (d : Fin 64) :
    packed3 m c (ix3 b s (Cert.ValueHeads.qcol e d)) = proj (argX m c) (argWq m c) (argBq m c) b s (col (headOf e) d) := by
  rw [packed_at]
  unfold proj
  refine congr (congrArg (· + ·) (Finset.sum_congr rfl fun k _ => congrArg (argX m c (ix3 b s k) * ·) ?_)) ?_
  · rw [weights1_eq]
    exact Cert.Packed.weight_q (argWq m c) (argWk m c) (argWv m c) concatenates_S1024x1024_S1024x1024_S1024x1024_S3072x1024_d0
      transposes_S3072x1024_S1024x3072_1_0 k _ (col (headOf e) d) rfl
  · rw [bias1_eq]
    exact Cert.Packed.bias_q (argBq m c) (argBk m c) (argBv m c) concatenates_S1024_S1024_S1024_S3072_d0 shapeCasts_S3072_S1x3072
      _ (col (headOf e) d) rfl

/-- The key columns, a thousand-odd columns further. -/
theorem k_at (b : Fin 4) (s : Fin 2048) (e : Fin 1024) (d : Fin 64) :
    packed3 m c (ix3 b s (Cert.ValueHeads.kcol e d)) = proj (argX m c) (argWk m c) (argBk m c) b s (col (headOf e) d) := by
  have hcol : (Cert.ValueHeads.kcol e d).val = 1024 + (col (headOf e) d).val := by
    show 1024 + 64 * (e.val / 64) + d.val = 1024 + (64 * (e.val / 64) + d.val); omega
  rw [packed_at]
  unfold proj
  refine congr (congrArg (· + ·) (Finset.sum_congr rfl fun k _ => congrArg (argX m c (ix3 b s k) * ·) ?_)) ?_
  · rw [weights1_eq]
    exact Cert.Packed.weight_k (argWq m c) (argWk m c) (argWv m c) concatenates_S1024x1024_S1024x1024_S1024x1024_S3072x1024_d0
      transposes_S3072x1024_S1024x3072_1_0 k _ (col (headOf e) d) hcol
  · rw [bias1_eq]
    exact Cert.Packed.bias_k (argBq m c) (argBk m c) (argBv m c) concatenates_S1024_S1024_S1024_S3072_d0 shapeCasts_S3072_S1x3072
      _ (col (headOf e) d) hcol

/-- The value columns, another thousand-odd further: feature `e` itself. -/
theorem v_at (b : Fin 4) (s : Fin 2048) (e : Fin 1024) :
    packed3 m c (ix3 b s (Cert.ValueHeads.vcol e)) = proj (argX m c) (argWv m c) (argBv m c) b s e := by
  rw [packed_at]
  unfold proj
  refine congr (congrArg (· + ·) (Finset.sum_congr rfl fun k _ => congrArg (argX m c (ix3 b s k) * ·) ?_)) ?_
  · rw [weights1_eq]
    exact Cert.Packed.weight_v (argWq m c) (argWk m c) (argWv m c) concatenates_S1024x1024_S1024x1024_S1024x1024_S3072x1024_d0
      transposes_S3072x1024_S1024x3072_1_0 k _ e rfl
  · rw [bias1_eq]
    exact Cert.Packed.bias_v (argBq m c) (argBk m c) (argBv m c) concatenates_S1024_S1024_S1024_S3072_d0 shapeCasts_S3072_S1x3072
      _ e rfl

/-! ## The contexts and the result -/

/-- The attention region's result is the heads' contexts side by side. -/
theorem ctx_at (b : Fin 4) (s : Fin 2048) (e : Fin 1024) :
    ctx4 m c (ix3 b s e)
      = merged (proj (argX m c) (argWq m c) (argBq m c)) (proj (argX m c) (argWk m c) (argBk m c)) (proj (argX m c) (argWv m c) (argBv m c)) b s e := by
  rw [ctx4_eq]
  show (∑ j : Fin 2048, weight (fun j' => (∑ d : Fin 64, packed3 m c (ix3 b s (Cert.ValueHeads.qcol e d))
          * packed3 m c (ix3 b j' (Cert.ValueHeads.kcol e d))) * eighth) j
        * packed3 m c (ix3 b j (Cert.ValueHeads.vcol e))) = _
  simp only [q_at, k_at, v_at]
  unfold merged context
  rw [col_head_lane]
  rfl

/-- THE RESULT: what the run leaves in the result buffer is the attention of the arguments. -/
theorem result_eq : res7 m c
    = attention (argX m c) (argWq m c) (argBq m c) (argWk m c) (argBk m c) (argWv m c) (argBv m c) (argWo m c) (argBo m c) := by
  funext i
  obtain ⟨b, s, e, rfl⟩ : ∃ (b : Fin 4) (s : Fin 2048) (e : Fin 1024), i = ix3 b s e := ⟨i 0, i 1, i 2, eq_ix3 i⟩
  rw [res7_eq]
  refine (Cert.FlattenRows.unflatten_apply _ shapeCasts_S8192x1024_S4x2048x1024 b s e (rowOf b s) rfl).trans ?_
  rw [out6_eq]
  show (∑ k : Fin 1024, ctx5 m c (ix2 (rowOf b s) k) * wo5 m c (ix2 k e)) + bo5 m c (ix2 0 e)
    = (∑ d : Fin 1024, merged (proj (argX m c) (argWq m c) (argBq m c)) (proj (argX m c) (argWk m c) (argBk m c)) (proj (argX m c) (argWv m c) (argBv m c)) b s d
          * argWo m c (ix2 e d)) + argBo m c (ix1 e)
  have h1 : ∀ k : Fin 1024, ctx5 m c (ix2 (rowOf b s) k)
      = merged (proj (argX m c) (argWq m c) (argBq m c)) (proj (argX m c) (argWk m c) (argBk m c)) (proj (argX m c) (argWv m c) (argBv m c)) b s k := fun k => by
    rw [ctx5_eq]
    exact (Cert.FlattenRows.flatten_apply _ shapeCasts_S4x2048x1024_S8192x1024 b s k (rowOf b s) rfl).trans (ctx_at m c b s k)
  have h2 : ∀ k : Fin 1024, wo5 m c (ix2 k e) = argWo m c (ix2 e k) := fun k => by
    rw [wo5_eq]
    exact transpose_ix2_apply (argWo m c) transposes_S1024x1024_S1024x1024_1_0 k e
  have h3 : bo5 m c (ix2 0 e) = argBo m c (ix1 e) := by
    rw [bo5_eq]
    exact shapeCast_a_1a_apply (argBo m c) shapeCasts_S1024_S1x1024 0 e
  simp only [h1, h2, h3]

/-- The same, of the buffer as the run's post names it. -/
theorem result_buffer : at7 m c main_v14
    = attention (argX m c) (argWq m c) (argBq m c) (argWk m c) (argBk m c) (argWv m c) (argBv m c) (argWo m c) (argBo m c) :=
  result_eq m c

end Cert.Bridge

end
-- ==== Proof.RefAttention.lean ====
/-
  The reference program computes multi-head attention.

  Each stage of the reference, read at an index with explicit coordinates, is the corresponding stage of the
  specification: the three linear maps, their views by head (feature 64 h + d is coordinate d of head h), the
  scaled inner products, the row maxima, the shifted exponentials and their sums, the weights, the contexts,
  the heads' contexts laid side by side, and the last linear map.
-/
import proofs.«146471_j31877247271608_2_alg».proof.Proof.Gen.ReferenceIdeal.Read
import proofs.«146471_j31877247271608_2_alg».proof.Proof.Spec
import proofs.«146471_j31877247271608_2_alg».proof.Proof.Gen.Pre_finite_inputs
import proofs.«146471_j31877247271608_2_alg».proof.Defs

noncomputable section

namespace Cert.RefAttention

open Cert.ReferenceIdeal Cert.ReferenceIdeal.Gen Cert.ReferenceIdeal.Read Cert.Attention
open Idealize.ShloMosaic Idealize.ShloMosaic.ValueIdx Idealize.SL.Sem

/-- The contents of an input of shape [4, 2048, 1024], of a weight matrix, of a bias vector. -/
abbrev C3 : Type := (⟨S4x2048x1024, .f32⟩ : BufTy).Contents (Elt Ideal)
abbrev C2 : Type := (⟨S1024x1024, .f32⟩ : BufTy).Contents (Elt Ideal)
abbrev C1 : Type := (⟨S1024, .f32⟩ : BufTy).Contents (Elt Ideal)

/-! ## The linear maps -/

/-- The first linear map of the reference at (b, s, e). -/
theorem proj_q (x : C3) (W : C2) (bias : C1) (b : Fin 4) (s : Fin 2048) (e : Fin 1024) :
    val_main_v3 (F := Ideal) x W bias (ix3 b s e) = proj x W bias b s e := by
  rw [val_main_v3_apply, val_main_v0_apply, val_main_v2_apply, val_main_v1_apply]
  simp only [Ideal.addf_def]
  unfold proj
  have el : ∀ k : Fin 1024, lidx_main_v0 (ix3 b s e) k = ix3 b s k := fun k => funext fun a => Fin.ext (by
    match a with
    | ⟨0, _⟩ => rfl
    | ⟨1, _⟩ => rfl
    | ⟨2, _⟩ => rfl)
  have er : ∀ k : Fin 1024, ridx_main_v0 (ix3 b s e) k = ix2 e k := fun k => funext fun a => Fin.ext (by
    match a with
    | ⟨0, _⟩ => rfl
    | ⟨1, _⟩ => rfl)
  have eb : idx_main_v1 (idx_main_v2 (ix3 b s e)) = ix1 e := funext fun a => Fin.ext (by
    match a with
    | ⟨0, _⟩ => rfl)
  rw [eb]
  exact congrArg (· + bias (ix1 e)) (Finset.sum_congr rfl fun k _ => by rw [el k, er k])

/-- The second and the third linear map are the same function of their arguments. -/
theorem proj_k (x : C3) (W : C2) (bias : C1) (b : Fin 4) (s : Fin 2048) (e : Fin 1024) :
    val_main_v9 (F := Ideal) x W bias (ix3 b s e) = proj x W bias b s e := proj_q x W bias b s e

theorem proj_v (x : C3) (W : C2) (bias : C1) (b : Fin 4) (s : Fin 2048) (e : Fin 1024) :
    val_main_v15 (F := Ideal) x W bias (ix3 b s e) = proj x W bias b s e := proj_q x W bias b s e

/-! ## The views by head -/

/-- Splitting the features into 16 heads of 64 and moving the head axis forward reads feature 64 h + d. -/
theorem head_idx (b : Fin 4) (h : Fin 16) (s : Fin 2048) (d : Fin 64) :
    idx_main_v4 (idx_main_v5 (ix4 b h s d)) = ix3 b s (col h d) := by
  funext a
  apply Fin.ext
  have hb := b.isLt
  have hh := h.isLt
  have hs := s.isLt
  have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

theorem head_q (x : C3) (W : C2) (bias : C1) (b : Fin 4) (h : Fin 16) (s : Fin 2048) (d : Fin 64) :
    val_main_v5 (F := Ideal) x W bias (ix4 b h s d) = proj x W bias b s (col h d) := by
  rw [val_main_v5_apply, val_main_v4_apply, head_idx]
  exact proj_q x W bias b s (col h d)

theorem head_k (x : C3) (W : C2) (bias : C1) (b : Fin 4) (h : Fin 16) (s : Fin 2048) (d : Fin 64) :
    val_main_v11 (F := Ideal) x W bias (ix4 b h s d) = proj x W bias b s (col h d) := head_q x W bias b h s d

theorem head_v (x : C3) (W : C2) (bias : C1) (b : Fin 4) (h : Fin 16) (s : Fin 2048) (d : Fin 64) :
    val_main_v17 (F := Ideal) x W bias (ix4 b h s d) = proj x W bias b s (col h d) := head_q x W bias b h s d

/-! ## The scaled inner products -/

theorem scores (x : C3) (Wq : C2) (bq : C1) (Wk : C2) (bk : C1) (b : Fin 4) (h : Fin 16) (i j : Fin 2048) :
    val_main_v20 (F := Ideal) x Wq bq Wk bk (ix4 b h i j) = score (proj x Wq bq) (proj x Wk bk) b h i j := by
  rw [val_main_v20_apply, val_main_v18_apply, val_main_v19_apply, val_main_cst_apply]
  simp only [Ideal.mulf_def, Ideal.ofBits_def]
  unfold score
  refine congrArg (· * eighth) (Finset.sum_congr rfl fun k _ => ?_)
  have el : lidx_main_v18 (ix4 b h i j) k = ix4 b h i k := funext fun a => Fin.ext (by
    match a with
    | ⟨0, _⟩ => rfl
    | ⟨1, _⟩ => rfl
    | ⟨2, _⟩ => rfl
    | ⟨3, _⟩ => rfl)
  have er : ridx_main_v18 (ix4 b h i j) k = ix4 b h j k := funext fun a => Fin.ext (by
    match a with
    | ⟨0, _⟩ => rfl
    | ⟨1, _⟩ => rfl
    | ⟨2, _⟩ => rfl
    | ⟨3, _⟩ => rfl)
  rw [el, er, head_q, head_k]

/-! ## The row maxima -/

/-- The contents of an array of scores. -/
abbrev C4 : Type := (⟨S4x16x2048x2048, .f32⟩ : BufTy).Contents (Elt Ideal)

/-- The reduced index (b, h, i) with coordinate k put back on the last axis is (b, h, i, k). -/
theorem lift_row (hr : S4x16x2048x2048.Reduces [3] S4x16x2048) (b : Fin 4) (h : Fin 16) (i : Fin 2048)
    (k : Fin (S4x16x2048x2048.size 3)) : hr.lift (ix3 b h i) k = ix4 b h i (⟨k.val, k.isLt⟩ : Fin 2048) := by
  funext c
  apply Fin.ext
  match c with
  | ⟨0, _⟩ => rfl
  | ⟨1, _⟩ => rfl
  | ⟨2, _⟩ => rfl
  | ⟨3, _⟩ => rfl

/-- The maximum along the last axis, started from the least element, is the fold of max over the row. -/
theorem reduce_max_row (y : C4) (b : Fin 4) (h : Fin 16) (i : Fin 2048) :
    Host.reduce (FloatOps.maximumf (F := Ideal) (φ := .f32)) y (val_main_cst_0 (F := Ideal))
        reducesTo_S4x16x2048x2048_S4x16x2048_d3 h_S_ (ix3 b h i)
      = rowMax fun j => y (ix4 b h i j) := by
  refine (Host.reduce_eq_fold_single (FloatOps.maximumf (F := Ideal) (φ := .f32)) y (val_main_cst_0 (F := Ideal))
    reducesTo_S4x16x2048x2048_S4x16x2048_d3 (by decide) h_S_ (ix3 b h i)).trans ?_
  exact congrArg (fun f => Finset.fold max least f (Finset.univ : Finset (Fin 2048)))
    (funext fun k => congrArg y (lift_row _ b h i k))

/-- Taking the maximum with the least element once more changes nothing. -/
theorem max_least_rowMax (s : Fin 2048 → EReal) : max least (rowMax s) = rowMax s :=
  max_eq_right ((Finset.le_fold_max least).2 (Or.inl le_rfl))

theorem row_max (x : C3) (Wq : C2) (bq : C1) (Wk : C2) (bk : C1) (b : Fin 4) (h : Fin 16) (i : Fin 2048) :
    val_main_v23 (F := Ideal) x Wq bq Wk bk (ix3 b h i) = rowMax (score (proj x Wq bq) (proj x Wk bk) b h i) := by
  rw [val_main_v23_apply, val_main_v22_apply, val_main_cst_1_apply]
  simp only [Ideal.maximumf_def, Ideal.ofBits_def]
  unfold val_main_v21
  rw [reduce_max_row]
  have hs : (fun j => val_main_v20 (F := Ideal) x Wq bq Wk bk (ix4 b h i j)) = score (proj x Wq bq) (proj x Wk bk) b h i :=
    funext fun j => scores x Wq bq Wk bk b h i j
  rw [hs]
  exact max_least_rowMax _

/-! ## The shifted exponentials, their sums, and the weights -/

theorem shifted_exp (x : C3) (Wq : C2) (bq : C1) (Wk : C2) (bk : C1) (b : Fin 4) (h : Fin 16) (i j : Fin 2048) :
    val_main_v27 (F := Ideal) x Wq bq Wk bk (ix4 b h i j) = shifted (score (proj x Wq bq) (proj x Wk bk) b h i) j := by
  have e : idx_main_v24 (idx_main_v25 (ix4 b h i j)) = ix3 b h i := funext fun a => Fin.ext (by
    match a with
    | ⟨0, _⟩ => rfl
    | ⟨1, _⟩ => rfl
    | ⟨2, _⟩ => rfl)
  rw [val_main_v27_apply, val_main_v26_apply, val_main_v25_apply, val_main_v24_apply, e, row_max, scores]
  simp only [Ideal.hostUnary_exp_def, Ideal.subf_def]
  rfl

theorem exp_sum (x : C3) (Wq : C2) (bq : C1) (Wk : C2) (bk : C1) (b : Fin 4) (h : Fin 16) (i : Fin 2048) :
    val_main_v28 (F := Ideal) x Wq bq Wk bk (ix3 b h i)
      = ∑ j : Fin 2048, shifted (score (proj x Wq bq) (proj x Wk bk) b h i) j := by
  rw [val_main_v28_apply, val_main_cst_2_apply]
  simp only [Ideal.ofBits_def, Ideal.ofBits_zero_f32, zero_add]
  refine Finset.sum_congr rfl fun k _ => ?_
  have e : idx_main_v28 (ix3 b h i) k = ix4 b h i k := funext fun a => Fin.ext (by
    match a with
    | ⟨0, _⟩ => rfl
    | ⟨1, _⟩ => rfl
    | ⟨2, _⟩ => rfl
    | ⟨3, _⟩ => rfl)
  rw [e, shifted_exp]

theorem weights (x : C3) (Wq : C2) (bq : C1) (Wk : C2) (bk : C1) (b : Fin 4) (h : Fin 16) (i j : Fin 2048) :
    val_main_v31 (F := Ideal) x Wq bq Wk bk (ix4 b h i j) = weight (score (proj x Wq bq) (proj x Wk bk) b h i) j := by
  have e : idx_main_v29 (idx_main_v30 (ix4 b h i j)) = ix3 b h i := funext fun a => Fin.ext (by
    match a with
    | ⟨0, _⟩ => rfl
    | ⟨1, _⟩ => rfl
    | ⟨2, _⟩ => rfl)
  rw [val_main_v31_apply, val_main_v30_apply, val_main_v29_apply, e, exp_sum, shifted_exp]
  simp only [Ideal.hostDivf_def]
  rfl

/-! ## The contexts, and the heads side by side -/

theorem contexts (x : C3) (Wq : C2) (bq : C1) (Wk : C2) (bk : C1) (Wv : C2) (bv : C1)
    (b : Fin 4) (h : Fin 16) (i : Fin 2048) (d : Fin 64) :
    val_main_v32 (F := Ideal) x Wq bq Wk bk Wv bv (ix4 b h i d)
      = context (proj x Wq bq) (proj x Wk bk) (proj x Wv bv) b i h d := by
  rw [val_main_v32_apply]
  unfold context
  refine Finset.sum_congr rfl fun k _ => ?_
  have el : lidx_main_v32 (ix4 b h i d) k = ix4 b h i k := funext fun a => Fin.ext (by
    match a with
    | ⟨0, _⟩ => rfl
    | ⟨1, _⟩ => rfl
    | ⟨2, _⟩ => rfl
    | ⟨3, _⟩ => rfl)
  have er : ridx_main_v32 (ix4 b h i d) k = ix4 b h k d := funext fun a => Fin.ext (by
    match a with
    | ⟨0, _⟩ => rfl
    | ⟨1, _⟩ => rfl
    | ⟨2, _⟩ => rfl
    | ⟨3, _⟩ => rfl)
  rw [el, er, weights, head_v]

/-- Moving the head axis back and joining the 16 heads of 64 reads head e / 64 at coordinate e % 64. -/
theorem merge_idx (b : Fin 4) (i : Fin 2048) (e : Fin 1024) :
    idx_main_v33 (idx_main_v34 (ix3 b i e)) = ix4 b (headOf e) i (laneOf e) := by
  funext a
  apply Fin.ext
  have hb := b.isLt
  have hi := i.isLt
  have he := e.isLt
  match a with
  | ⟨0, _⟩ => show ((b.val * 2048 + i.val) * 1024 + e.val) / 2097152 = b.val; omega
  | ⟨1, _⟩ => show ((b.val * 2048 + i.val) * 1024 + e.val) / 64 % 16 = e.val / 64; omega
  | ⟨2, _⟩ => show ((b.val * 2048 + i.val) * 1024 + e.val) / 1024 % 2048 = i.val; omega
  | ⟨3, _⟩ => show ((b.val * 2048 + i.val) * 1024 + e.val) % 64 = e.val % 64; omega

theorem merged_heads (x : C3) (Wq : C2) (bq : C1) (Wk : C2) (bk : C1) (Wv : C2) (bv : C1)
    (b : Fin 4) (i : Fin 2048) (e : Fin 1024) :
    val_main_v34 (F := Ideal) x Wq bq Wk bk Wv bv (ix3 b i e)
      = merged (proj x Wq bq) (proj x Wk bk) (proj x Wv bv) b i e := by
  rw [val_main_v34_apply, val_main_v33_apply, merge_idx, contexts]
  rfl

/-! ## The last linear map: the reference is multi-head attention -/

theorem reference_eq (x : C3) (Wq : C2) (bq : C1) (Wk : C2) (bk : C1) (Wv : C2) (bv : C1) (Wo : C2) (bo : C1) :
    val_main_v38 (F := Ideal) x Wq bq Wk bk Wv bv Wo bo = attention x Wq bq Wk bk Wv bv Wo bo := by
  funext idx
  obtain ⟨b, s, e, rfl⟩ : ∃ (b : Fin 4) (s : Fin 2048) (e : Fin 1024), idx = ix3 b s e := ⟨idx 0, idx 1, idx 2, eq_ix3 idx⟩
  rw [val_main_v38_apply, val_main_v35_apply, val_main_v37_apply, val_main_v36_apply]
  simp only [Ideal.addf_def]
  have eb : idx_main_v36 (idx_main_v37 (ix3 b s e)) = ix1 e := funext fun a => Fin.ext (by
    match a with
    | ⟨0, _⟩ => rfl)
  rw [eb]
  show _ = (∑ d : Fin 1024, merged (proj x Wq bq) (proj x Wk bk) (proj x Wv bv) b s d * Wo (ix2 e d)) + bo (ix1 e)
  refine congrArg (· + bo (ix1 e)) (Finset.sum_congr rfl fun k _ => ?_)
  have el : lidx_main_v35 (ix3 b s e) k = ix3 b s k := funext fun a => Fin.ext (by
    match a with
    | ⟨0, _⟩ => rfl
    | ⟨1, _⟩ => rfl
    | ⟨2, _⟩ => rfl)
  have er : ridx_main_v35 (ix3 b s e) k = ix2 e k := funext fun a => Fin.ext (by
    match a with
    | ⟨0, _⟩ => rfl
    | ⟨1, _⟩ => rfl)
  rw [el, er, merged_heads]

/-! ## The reference's run leaves its arguments as they were -/

theorem frame_ref : Cert.frame_ReferenceIdeal := fun m ρ _ =>
  (θ_run Cert.ReferenceIdeal.defs _ _).mono (fun _ h c => (h c).2) (Cert.ReferenceIdeal.Value.run (F := Ideal) m ρ)

end Cert.RefAttention

end
-- ==== Proof.lean ====
/-
  The kernel — a fused query / key / value projection, attention per pair of heads over the packed projections, and an
  output projection, each a pipelined region between host reshapes — computes, on the extended reals, the same
  function of its nine arguments as the reference: multi-head attention, index by index.

  * Both printed kernels run to the end with the arguments unchanged: @main is followed item by item, every region's
    body run once at a symbolic grid point, the attention region's three readers of one array holding it at three
    shares of the whole.
  * The idealization rewrote no operation, so nothing is owed for it.
  * The idealized kernel's result buffer ends at `attention` of the arguments: each region's result array is one
    function of the arrays it reads (a linear map; the softmax-weighted sums of one head pair), and the host
    reshapes, the stacked transposed weights and the joined biases are read at coordinates.
  * The reference's generated run ends at the same `attention`: its projections, head views, scores, row maxima,
    shifted exponentials, their sums, the weights, the contexts and the merged heads, one operation at a time.
-/
import proofs.«146471_j31877247271608_2_alg».proof.Defs
import proofs.«146471_j31877247271608_2_alg».proof.Proof.Gen.Kernel
import proofs.«146471_j31877247271608_2_alg».proof.Proof.Gen.KernelIdeal
import proofs.«146471_j31877247271608_2_alg».proof.Proof.Gen.ReferenceIdeal
import proofs.«146471_j31877247271608_2_alg».proof.Proof.Gen.ReferenceIdeal.Read
import proofs.«146471_j31877247271608_2_alg».proof.Proof.Gen.Pre_finite_inputs
import proofs.«146471_j31877247271608_2_alg».proof.Proof.K.Frame
import proofs.«146471_j31877247271608_2_alg».proof.Proof.KI.Frame
import proofs.«146471_j31877247271608_2_alg».proof.Proof.Bridge
import proofs.«146471_j31877247271608_2_alg».proof.Proof.RefAttention
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Whole.frame (F := Bits) m ρ

/-- So does its idealization. -/
theorem frame_ideal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- On the extended reals the idealized kernel and the idealized reference both end at the attention of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attention.attention (Cert.Bridge.argX m c) (Cert.Bridge.argWq m c) (Cert.Bridge.argBq m c) (Cert.Bridge.argWk m c)
      (Cert.Bridge.argBk m c) (Cert.Bridge.argWv m c) (Cert.Bridge.argBv m c) (Cert.Bridge.argWo m c) (Cert.Bridge.argBo m c), ?_, ?_⟩
  · refine (θ_run Cert.KernelIdeal.defs _ _).mono (fun r h c => ⟨?_, Cert.KernelIdeal.Whole.args_kept m r h c⟩)
      (Cert.KernelIdeal.Whole.run (F := Ideal) m ρ)
    exact (Cert.KernelIdeal.Whole.run_at m r h c Cert.KernelIdeal.main_v14 (by decide)).trans (Cert.Bridge.result_eq m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v38_eq, Cert.RefAttention.reference_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, Cert.RefAttention.frame_ref, trivial, algebraic⟩

end Cert.Proof

end
